-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg12 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S64 .f32) (main_arg9 : FVec F S64 .f32) (main_arg10 : FVec F S64 .f32) (main_arg11 : FVec F S64x64 .f32) (main_arg12 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_v48 main_v49 main_v50

def fn_part1 {F : FTy → Type} [FloatOps F] (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x64 .f32) (main_arg1 : FVec F S1000000 .f32) (main_arg2 : IVec S2x1000000 32) (main_arg3 : FVec F S128x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x64 : Shape := ⟨2, ![100000, 64]⟩
abbrev S1000000 : Shape := ⟨1, ![1000000]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000x1 : Shape := ⟨2, ![1000000, 1]⟩
abbrev S2000000 : Shape := ⟨1, ![2000000]⟩
abbrev S_ : Shape := ⟨0, ![]⟩
abbrev S1000000x64 : Shape := ⟨2, ![1000000, 64]⟩
abbrev S2000000x64 : Shape := ⟨2, ![2000000, 64]⟩
abbrev S2000000x1 : Shape := ⟨2, ![2000000, 1]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 56
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S2x1000000, .i32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S1000000x1, .f32⟩
  | .hbm, ⟨18, _⟩ => ⟨S2000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x64, .f32⟩
  | .hbm, ⟨28, _⟩ => ⟨S1000000x64, .f32⟩
  | .hbm, ⟨29, _⟩ => ⟨S1000000x64, .f32⟩
  | .hbm, ⟨30, _⟩ => ⟨S_, .i32⟩
  | .hbm, ⟨31, _⟩ => ⟨S1000000, .i32⟩
  | .hbm, ⟨32, _⟩ => ⟨S1000000, .i1⟩
  | .hbm, ⟨33, _⟩ => ⟨S_, .i32⟩
  | .hbm, ⟨34, _⟩ => ⟨S1000000, .i32⟩
  | .hbm, ⟨35, _⟩ => ⟨S1000000, .i32⟩
  | .hbm, ⟨36, _⟩ => ⟨S1000000, .i32⟩
  | .hbm, ⟨37, _⟩ => ⟨S1000000x1, .i32⟩
  | .hbm, ⟨38, _⟩ => ⟨S1000000x64, .f32⟩
  | .hbm, ⟨39, _⟩ => ⟨S1000000x64, .f32⟩
  | .hbm, ⟨40, _⟩ => ⟨S1000000x64, .f32⟩
  | .hbm, ⟨41, _⟩ => ⟨S2000000x64, .f32⟩
  | .hbm, ⟨42, _⟩ => ⟨S_, .f32⟩
  | .hbm, ⟨43, _⟩ => ⟨S100000x64, .f32⟩
  | .hbm, ⟨44, _⟩ => ⟨S2000000x1, .i32⟩
  | .hbm, ⟨45, _⟩ => ⟨S100000x64, .f32⟩
  | .hbm, ⟨46, _⟩ => ⟨S64x64, .f32⟩
  | .hbm, ⟨47, _⟩ => ⟨S64x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S5000x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  concatenates_S1000000_S1000000_S2000000_d0 : Shape.Concatenates [S1000000, S1000000] S2000000 0
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  concatenates_S1000000x64_S1000000x64_S2000000x64_d0 : Shape.Concatenates [S1000000x64, S1000000x64] S2000000x64 0
  bcast_S_S100000x64 : S_.BroadcastsInDim S100000x64 (![] : Fin 0 → Fin S100000x64.rank)
  bcast_S2000000_S2000000x1_0 : S2000000.BroadcastsInDim S2000000x1 (![0] : Fin 1 → Fin S2000000x1.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  gather_S100000x64_S1000000x1_S1000000x64_1_0_n_n_0_1_164_wf : GatherDims.WF S100000x64 S1000000x1 S1000000x64 [1] [0] [] [0] [] 1 ![1, 64]
  scatter_S100000x64_S2000000x1_S2000000x64_1_0_0_1_wf : ScatterDims.WF S100000x64 S2000000x1 S2000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S5000x64.size a ≤ S100000x64.size a
  hwx0_13 : ∀ i : grid0.Coords, EltTy.bits .f32 = 32 ∨ (Rect.block (s := S100000x64) S5000x64.size (cc0_transform_13 i) (hinb0_13 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v27) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v35) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v36) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v37) S5000x64.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S2x1000000 : Shape := ⟨2, ![2, 1000000]⟩
abbrev S128x64 : Shape := ⟨2, ![128, 64]⟩
abbrev S64 : Shape := ⟨1, ![64]⟩
abbrev S64x64 : Shape := ⟨2, ![64, 64]⟩
abbrev S1x1000000 : Shape := ⟨2, ![1, 1000000]⟩
abbrev S1000000x1 : Shape := ⟨2, ![1000000, 1]⟩
abbrev S_ : Shape := ⟨0, ![]⟩
abbrev S1000000x64 : Shape := ⟨2, ![1000000, 64]⟩
abbrev S100000x128 : Shape := ⟨2, ![100000, 128]⟩
abbrev S1x64 : Shape := ⟨2, ![1, 64]⟩
abbrev S100000 : Shape := ⟨1, ![100000]⟩
abbrev S100000x1 : Shape := ⟨2, ![100000, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .f32⟩
  | .hbm, ⟨2, _⟩ => ⟨S2x1000000, .i32⟩
  | .hbm, ⟨3, _⟩ => ⟨S128x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S1000000x1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .f32⟩
  | .hbm, ⟨27, _⟩ => ⟨S1000000x64, .f32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S_, .i32⟩
  | .hbm, ⟨34, _⟩ => ⟨S1000000, .i32⟩
  | .hbm, ⟨35, _⟩ => ⟨S1000000, .i1⟩
  | .hbm, ⟨36, _⟩ => ⟨S_, .i32⟩
  | .hbm, ⟨37, _⟩ => ⟨S1000000, .i32⟩
  | .hbm, ⟨38, _⟩ => ⟨S1000000, .i32⟩
  | .hbm, ⟨39, _⟩ => ⟨S1000000, .i32⟩
  | .hbm, ⟨40, _⟩ => ⟨S1000000x1, .i32⟩
  | .hbm, ⟨41, _⟩ => ⟨S1000000x64, .f32⟩
  | .hbm, ⟨42, _⟩ => ⟨S1000000x64, .f32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x64, .f32⟩
  | .hbm, ⟨49, _⟩ => ⟨S100000x128, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000, .f32⟩
  | .hbm, ⟨65, _⟩ => ⟨S100000x1, .f32⟩
  | .hbm, ⟨66, _⟩ => ⟨S_, .f32⟩
  | .hbm, ⟨67, _⟩ => ⟨S100000x1, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000, .f32⟩
  | .hbm, ⟨90, _⟩ => ⟨S100000x1, .f32⟩
  | .hbm, ⟨91, _⟩ => ⟨S_, .f32⟩
  | .hbm, ⟨92, _⟩ => ⟨S100000x1, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S_, .f32⟩
  | .hbm, ⟨101, _⟩ => ⟨S100000x1, .f32⟩
  | .hbm, ⟨102, _⟩ => ⟨S100000x1, .f32⟩
  | .hbm, ⟨103, _⟩ => ⟨S100000x64, .f32⟩
  | .hbm, ⟨104, _⟩ => ⟨S100000x64, .f32⟩
  | .hbm, ⟨105, _⟩ => ⟨S_, .f32⟩
  | .hbm, ⟨106, _⟩ => ⟨S100000x1, .f32⟩
  | .hbm, ⟨107, _⟩ => ⟨S100000x1, .f32⟩
  | .hbm, ⟨108, _⟩ => ⟨S100000x1, .f32⟩
  | .hbm, ⟨109, _⟩ => ⟨S100000x64, .f32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S100000x64, .f32⟩
  | .hbm, ⟨118, _⟩ => ⟨S100000x64, .f32⟩
  | .hbm, ⟨119, _⟩ => ⟨S1x64, .f32⟩
  | .hbm, ⟨120, _⟩ => ⟨S100000x64, .f32⟩
  | .hbm, ⟨121, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_9 : Ref sig .tc := ⟨.hbm, 88, rfl⟩
abbrev main_v64 : Ref sig .tc := ⟨.hbm, 89, rfl⟩
abbrev main_v65 : Ref sig .tc := ⟨.hbm, 90, rfl⟩
abbrev main_cst_10 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_v71 : Ref sig .tc := ⟨.hbm, 98, rfl⟩
abbrev main_v72 : Ref sig .tc := ⟨.hbm, 99, rfl⟩
abbrev main_cst_12 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_13 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The network this kernel computes, row by row, over the extended reals.

  Each of the 100000 nodes has a 64-entry message row `mi` (a weighted sum over its incident edges) and a 64-entry
  feature row `x`. The node's output row is a three-layer perceptron of the two rows laid side by side:
  a first linear layer on the 128 inputs, written here as the sum of two 64-term products (one with the top half of
  the weight matrix, one with the bottom half); a layer normalisation (mean and variance over the 64 entries, the
  variance offset by a small constant, an affine map) followed by `tanh`; a second linear layer, normalisation
  and `tanh`; and a last linear layer. All sums are exact sums of extended reals, the quotient by 64 is the quotient
  by the word of `64.0`, and the offset is the word the programs print.
-/
import Idealize.ShloMosaic.PureOps.Ideal
import Idealize.ShloMosaic.Lib.ValueIdx

noncomputable section

namespace Cert.EdgeMLP

open Idealize.ShloMosaic Idealize.ShloMosaic.ValueIdx
open scoped BigOperators

/-- A row of 64 extended reals. -/
abbrev Row := Fin 64 → EReal

/-- The divisor of a mean over 64 entries: the word of `64.0`. -/
def w64 : EReal := Ideal.ofBits .f32 0x42800000#32

/-- The offset added to a variance before the inverse square root. -/
def wEps : EReal := Ideal.ofBits .f32 0x3727C5AC#32

/-- The mean of a row. -/
def mean (h : Row) : EReal := Ideal.div (∑ k, h k) w64

/-- A row less its mean. -/
def centred (h : Row) : Row := fun j => h j - mean h

/-- The inverse square root of the offset variance of a row. -/
def invStd (h : Row) : EReal := Ideal.rsqrt (Ideal.div (∑ k, centred h k * centred h k) w64 + wEps)

/-- Layer normalisation with scale `g` and shift `b`, then `tanh`. -/
def normAct (h g b : Row) : Row := fun j => Ideal.tanh (centred h j * invStd h * g j + b j)

/-- A linear layer: the row times the weight matrix, plus the bias. -/
def affine (a : Row) (W : Fin 64 → Fin 64 → EReal) (b : Row) : Row := fun j => (∑ k, a k * W k j) + b j

/-- The first layer on the message row and the feature row, each with its half of the weights. -/
def firstLayer (mi x : Row) (Wa Wb : Fin 64 → Fin 64 → EReal) (b : Row) : Row :=
  fun j => ((∑ k, mi k * Wa k j) + ∑ k, x k * Wb k j) + b j

/-- Everything after the first linear layer. -/
def tail (h g1 be1 : Row) (W2 : Fin 64 → Fin 64 → EReal) (b2 g2 be2 : Row) (W3 : Fin 64 → Fin 64 → EReal) (b3 : Row) : Row :=
  affine (normAct (affine (normAct h g1 be1) W2 b2) g2 be2) W3 b3

/-- The whole result array as one function of the message array, the features and the parameters. -/
def G (mi x : (⟨2, ![100000, 64]⟩ : Shape).Idx → EReal) (W1 : (⟨2, ![128, 64]⟩ : Shape).Idx → EReal)
    (b1 g1 be1 : (⟨1, ![64]⟩ : Shape).Idx → EReal) (W2 : (⟨2, ![64, 64]⟩ : Shape).Idx → EReal)
    (b2 g2 be2 : (⟨1, ![64]⟩ : Shape).Idx → EReal) (W3 : (⟨2, ![64, 64]⟩ : Shape).Idx → EReal)
    (b3 : (⟨1, ![64]⟩ : Shape).Idx → EReal) : (⟨2, ![100000, 64]⟩ : Shape).Idx → EReal := fun i =>
  tail (firstLayer (fun k => mi (ix2 (i 0) k)) (fun k => x (ix2 (i 0) k))
      (fun k j => W1 (ix2 (⟨k.val, by omega⟩ : Fin 128) j)) (fun k j => W1 (ix2 (⟨64 + k.val, by omega⟩ : Fin 128) j))
      (fun j => b1 (ix1 j)))
    (fun j => g1 (ix1 j)) (fun j => be1 (ix1 j)) (fun k j => W2 (ix2 k j)) (fun j => b2 (ix1 j)) (fun j => g2 (ix1 j))
    (fun j => be2 (ix1 j)) (fun k j => W3 (ix2 k j)) (fun j => b3 (ix1 j)) (i 1)

/-- A sum over 128 terms is the sum over the first 64 plus the sum over the last 64. -/
theorem sum_halves (f : Fin 128 → EReal) :
    ∑ k : Fin 128, f k = (∑ k : Fin 64, f ⟨k.val, by omega⟩) + ∑ k : Fin 64, f ⟨64 + k.val, by omega⟩ :=
  Fin.sum_univ_add (a := 64) (b := 64) f

end Cert.EdgeMLP

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.LibPlainProduct.lean ====
/-
  A product of an m×k matrix with the TRANSPOSE of an n×k matrix, read at one entry.

  A linear layer `y = x · Wᵀ` with the weight stored [out, in] prints in a kernel as a `tpu.matmul` of the rows with
  `tpu.transpose W` into a zero accumulator, and on the host as a `dot_general` of the rows with `stablehlo.transpose W`;
  both have the dimension numbers of the plain product (contract the left operand's axis 1 with the right operand's
  axis 0, no batch axis). At the ideal values either one, read at entry (a, b), is the sum over the contracted
  coordinate c of `x (a, c) · W (b, c)`: the accumulator is the zero of the extended reals, which `0 + s = s` drops, and the
  transpose only names the entry (c, b) of its result as the entry (b, c) of its operand. Nothing here needs the entries
  to be finite.
-/
import Idealize.ShloMosaic.Lib.StackMember
import Idealize.ShloMosaic.Lib.KernelVsHost
import Idealize.ShloMosaic.Lib.Pipeline.Value
import Idealize.ShloMosaic.Lib.ValueIdx

noncomputable section

open scoped BigOperators

namespace Idealize.ShloMosaic.PlainProduct

open Idealize.ShloMosaic Idealize.ShloMosaic.ValueIdx

variable {m k n : Nat} {φ₁ φ₂ : FTy}

/-- The transpose of an n×k matrix, read at (c, b), is the matrix at (b, c). -/
theorem transpose_swap_apply {α : Type} (W : (⟨2, ![n, k]⟩ : Shape).Idx → α)
    (h : (⟨2, ![n, k]⟩ : Shape).Transposes [1, 0] ⟨2, ![k, n]⟩) (c : Fin k) (b : Fin n) :
    transpose ⟨2, ![k, n]⟩ [1, 0] W h (ix2 c b) = W (ix2 b c) :=
  transpose_apply [1, 0] W h (ix2 c b) (ix2 b c) fun ax => by
    match ax with
    | ⟨0, _⟩ => rfl
    | ⟨1, _⟩ => rfl

/-- A host `dot_general` whose dimension numbers are the plain product's, read at (a, b): the sum over the contracted
    coordinate of the products of the entries. -/
theorem dotGeneral_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- A kernel's `tpu.matmul` with those dimension numbers into the zero splat, read at (a, b): the same sum. -/
theorem matmul_of_plain (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant ⟨2, ![m, n]⟩ .f32 0x00000000#32) (ix2 a b) = ∑ c : Fin k, A (ix2 a c) * B (ix2 c b) := by
  rw [matmul_zero_eq_dotGeneral]
  exact dotGeneral_of_plain D hD prec A B a b

/-- THE HOST'S LINEAR LAYER at an entry: `dot_general` of the rows with the transposed weight is `∑ c, x (a, c) · W (b, c)`. -/
theorem dotGeneral_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    Host.dotGeneral D prec A (transpose ⟨2, ![k, n]⟩ [1, 0] W h) (ix2 a b) = ∑ c : Fin k, A (ix2 a c) * W (ix2 b c) := by
  rw [dotGeneral_of_plain D hD]
  exact Finset.sum_congr rfl fun c _ => by rw [transpose_swap_apply]

/-- THE KERNEL'S LINEAR LAYER at an entry: `tpu.matmul` of the rows with the transposed weight into the zero splat is the
    same sum. -/
theorem matmul_transposed_apply (D : DotDims ⟨2, ![m, k]⟩ ⟨2, ![k, n]⟩ ⟨2, ![m, n]⟩) (hD : D = DotDims.plain m k n)
    (prec : Option ContractPrecision) (A : FVec Ideal ⟨2, ![m, k]⟩ φ₁) (W : FVec Ideal ⟨2, ![n, k]⟩ φ₂)
    (h : (⟨2, ![n, k]⟩ : Shape).Transposes [1, 0] ⟨2, ![k, n]⟩) (a : Fin m) (b : Fin n) :
    matmul D prec A (transpose ⟨2, ![k, n]⟩ [1, 0] W h) (constant ⟨2, ![m, n]⟩ .f32 0x00000000#32) (ix2 a b)
      = ∑ c : Fin k, A (ix2 a c) * W (ix2 b c) := by
  rw [matmul_of_plain D hD]
  exact Finset.sum_congr rfl fun c _ => by rw [transpose_swap_apply]

end Idealize.ShloMosaic.PlainProduct

end
-- ==== Proof.KernelBlock.lean ====
/-
  One block of the kernel, read at an index.

  At a grid point the kernel body sees a block of 5000 message rows `x0`, the same 5000 feature rows `x1`, the two
  halves of the first weight matrix `x2`, `x3`, and the remaining parameters `x4 … x12` (biases, scales and shifts as
  `[1, 64]` rows, weights as `[64, 64]` matrices). What it stores at row `r`, column `q` of its output block depends on
  row `r` of the two input blocks alone, and is the perceptron `Cert.EdgeMLP.tail` of the first layer of that row.
  The body's text is cut here into the pieces the network is made of — a linear layer (a matrix product into the
  zero matrix plus a bias row copied down), the column of row means, the centred block, the column of inverse
  standard deviations, the normalised and squashed block — and each piece is read at `(r, j)`; a change of float
  format is the identity on extended reals.
-/
import proofs.«173184_j3255585210371_2_alg».proof.Proof.Gen.KernelIdeal.Frame
import proofs.«173184_j3255585210371_2_alg».proof.Proof.Spec
import proofs.«173184_j3255585210371_2_alg».proof.Proof.LibColumnForms
import proofs.«173184_j3255585210371_2_alg».proof.Proof.LibRowForms
import proofs.«173184_j3255585210371_2_alg».proof.Proof.LibPlainProduct
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx Cert.EdgeMLP
open scoped BigOperators

/-! ## The pieces of the body, as it spells them -/

/-- A linear layer on a block: the rows times the weight matrix, into the zero matrix, plus the bias row copied down. -/
def linBlk {φ : FTy} (a : FVec Ideal S5000x64 φ) (W : FVec Ideal S64x64 .f32) (b : FVec Ideal S1x64 .f32) : FVec Ideal S5000x64 .f32 :=
  addf (matmul dot_S5000x64_S64x64_S5000x64_1_0_0_1_n_n none a (truncf .bf16 W bitsLt_bf16_f32) (constant S5000x64 .f32 0x00000000#32))
    (broadcastTo S5000x64 (shapeCast S1x64 b shapeCasts_S1x64_S1x64) broadcasts_S1x64_S5000x64)

/-- The column of row means of a block. -/
def meanCol (h : FVec Ideal S5000x64 .f32) : FVec Ideal S5000x1 .f32 :=
  divf (shapeCast S5000x1 (multiReduction .add [1] S5000 h 0x00000000#32 reduces_S5000x64_S5000 (.inl rfl) rfl) shapeCasts_S5000_S5000x1)
    (broadcast S5000x1 (Scalar.ofBits .f32 0x42800000#32))

/-- A block less its row means. -/
def cenBlk (h : FVec Ideal S5000x64 .f32) : FVec Ideal S5000x64 .f32 :=
  subf h (broadcastTo S5000x64 (meanCol h) broadcasts_S5000x1_S5000x64)

/-- The column of inverse standard deviations of a block's rows. -/
def rsCol (h : FVec Ideal S5000x64 .f32) : FVec Ideal S5000x1 .f32 :=
  rsqrt (addf (divf (shapeCast S5000x1 (multiReduction .add [1] S5000 (mulf (cenBlk h) (cenBlk h)) 0x00000000#32 reduces_S5000x64_S5000 (.inl rfl) rfl) shapeCasts_S5000_S5000x1)
      (broadcast S5000x1 (Scalar.ofBits .f32 0x42800000#32)))
    (broadcast S5000x1 (Scalar.ofBits .f32 0x3727C5AC#32)))

/-- The centred block times the inverse deviations, scaled, shifted and squashed. -/
def actBlk (cen : FVec Ideal S5000x64 .f32) (rs : FVec Ideal S5000x1 .f32) (g b : FVec Ideal S1x64 .f32) : FVec Ideal S5000x64 .f32 :=
  tanh (addf (mulf (mulf cen (broadcastTo S5000x64 rs broadcasts_S5000x1_S5000x64)) (broadcastTo S5000x64 g broadcasts_S1x64_S5000x64))
    (broadcastTo S5000x64 b broadcasts_S1x64_S5000x64))

/-! ## Each piece at an index -/

theorem dot_plain : dot_S5000x64_S64x64_S5000x64_1_0_0_1_n_n = DotDims.plain 5000 64 64 := rfl

/-- A linear layer at `(r, j)`: row `r` against column `j` of the weights, plus entry `j` of the bias. -/
theorem linBlk_apply {φ : FTy} (a : FVec Ideal S5000x64 φ) (W : FVec Ideal S64x64 .f32) (b : FVec Ideal S1x64 .f32) (r : Fin 5000) (j : Fin 64) :
    linBlk a W b (ix2 r j) = (∑ k : Fin 64, a (ix2 r k) * W (ix2 k j)) + b (ix2 (0 : Fin 1) j) := by
  show matmul dot_S5000x64_S64x64_S5000x64_1_0_0_1_n_n none a (truncf .bf16 W bitsLt_bf16_f32) (constant S5000x64 .f32 0x00000000#32) (ix2 r j)
      + broadcastTo S5000x64 (shapeCast S1x64 b shapeCasts_S1x64_S1x64) broadcasts_S1x64_S5000x64 (ix2 r j) = _
  rw [PlainProduct.matmul_of_plain _ dot_plain, broadcastTo_1b_ab_apply, shapeCast_self]
  rfl

/-- The mean column at row `r`: the mean of row `r`. -/
theorem meanCol_apply (h : FVec Ideal S5000x64 .f32) (r : Fin 5000) (u : Fin 1) :
    meanCol h (ix2 r u) = mean (fun k => h (ix2 r k)) := by
  show Ideal.div (shapeCast S5000x1 (multiReduction .add [1] S5000 h 0x00000000#32 reduces_S5000x64_S5000 (.inl rfl) rfl) shapeCasts_S5000_S5000x1 (ix2 r u)) _ = _
  rw [ColumnForms.shapeCast_a_a1_apply, RowForms.multiReduction_add_rows]
  rfl

/-- The centred block at `(r, j)`. -/
theorem cenBlk_apply (h : FVec Ideal S5000x64 .f32) (r : Fin 5000) (j : Fin 64) :
    cenBlk h (ix2 r j) = centred (fun k => h (ix2 r k)) j := by
  show h (ix2 r j) - broadcastTo S5000x64 (meanCol h) broadcasts_S5000x1_S5000x64 (ix2 r j) = _
  rw [ColumnForms.broadcastTo_a1_ab_apply, meanCol_apply]
  rfl

/-- The inverse deviation column at row `r`. -/
theorem rsCol_apply (h : FVec Ideal S5000x64 .f32) (r : Fin 5000) (u : Fin 1) :
    rsCol h (ix2 r u) = invStd (fun k => h (ix2 r k)) := by
  show Ideal.rsqrt (Ideal.div (shapeCast S5000x1 (multiReduction .add [1] S5000 (mulf (cenBlk h) (cenBlk h)) 0x00000000#32 reduces_S5000x64_S5000 (.inl rfl) rfl) shapeCasts_S5000_S5000x1 (ix2 r u)) _ + _) = _
  rw [ColumnForms.shapeCast_a_a1_apply, RowForms.multiReduction_add_rows]
  simp only [mulf_apply, cenBlk_apply]
  rfl

/-- The squashed block at `(r, j)`. -/
theorem actBlk_apply (cen : FVec Ideal S5000x64 .f32) (rs : FVec Ideal S5000x1 .f32) (g b : FVec Ideal S1x64 .f32) (r : Fin 5000) (j : Fin 64) :
    actBlk cen rs g b (ix2 r j) = Ideal.tanh (cen (ix2 r j) * rs (ix2 r (0 : Fin 1)) * g (ix2 (0 : Fin 1) j) + b (ix2 (0 : Fin 1) j)) := by
  show Ideal.tanh (cen (ix2 r j) * broadcastTo S5000x64 rs broadcasts_S5000x1_S5000x64 (ix2 r j) * broadcastTo S5000x64 g broadcasts_S1x64_S5000x64 (ix2 r j)
      + broadcastTo S5000x64 b broadcasts_S1x64_S5000x64 (ix2 r j)) = _
  rw [ColumnForms.broadcastTo_a1_ab_apply, broadcastTo_1b_ab_apply, broadcastTo_1b_ab_apply]

/-- Normalising and squashing a block, at `(r, j)`, is `normAct` of row `r`. -/
theorem normBlk_apply (h : FVec Ideal S5000x64 .f32) (g b : FVec Ideal S1x64 .f32) (r : Fin 5000) (j : Fin 64) :
    actBlk (cenBlk h) (rsCol h) g b (ix2 r j) = normAct (fun k => h (ix2 r k)) (fun k => g (ix2 (0 : Fin 1) k)) (fun k => b (ix2 (0 : Fin 1) k)) j := by
  rw [actBlk_apply, cenBlk_apply, rsCol_apply]
  rfl

/-! ## The body's payloads are these pieces -/

/-- The first layer's output block: two products, added, plus the bias row. -/
theorem pay2_apply (x0 x1 : Vec Ideal S5000x64 .f32) (x2 x3 : Vec Ideal S64x64 .f32) (x4 : Vec Ideal S1x64 .f32) (r : Fin 5000) (j : Fin 64) :
    k0_pay2 (F := Ideal) x0 x1 x2 x3 x4 (ix2 r j)
      = firstLayer (fun k => x0 (ix2 r k)) (fun k => x1 (ix2 r k)) (fun k j => x2 (ix2 k j)) (fun k j => x3 (ix2 k j)) (fun j => x4 (ix2 (0 : Fin 1) j)) j := by
  show (matmul (F := Ideal) dot_S5000x64_S64x64_S5000x64_1_0_0_1_n_n none (truncf .bf16 (shapeCast S5000x64 x0 shapeCasts_S5000x64_S5000x64) bitsLt_bf16_f32)
          (truncf .bf16 (shapeCast S64x64 x2 shapeCasts_S64x64_S64x64) bitsLt_bf16_f32) (constant S5000x64 .f32 0x00000000#32) (ix2 r j)
        + matmul (F := Ideal) dot_S5000x64_S64x64_S5000x64_1_0_0_1_n_n none (truncf .bf16 x1 bitsLt_bf16_f32)
          (truncf .bf16 (shapeCast S64x64 x3 shapeCasts_S64x64_S64x64) bitsLt_bf16_f32) (constant S5000x64 .f32 0x00000000#32) (ix2 r j))
      + broadcastTo S5000x64 (shapeCast S1x64 x4 shapeCasts_S1x64_S1x64) broadcasts_S1x64_S5000x64 (ix2 r j) = _
  rw [PlainProduct.matmul_of_plain _ dot_plain, PlainProduct.matmul_of_plain _ dot_plain, broadcastTo_1b_ab_apply]
  simp only [shapeCast_self]
  rfl

theorem pay6_eq (x0 x1 : Vec Ideal S5000x64 .f32) (x2 x3 : Vec Ideal S64x64 .f32) (x4 : Vec Ideal S1x64 .f32) :
    k0_pay6 (F := Ideal) x0 x1 x2 x3 x4 = cenBlk (k0_pay2 x0 x1 x2 x3 x4) := rfl

theorem pay7_eq (x0 x1 : Vec Ideal S5000x64 .f32) (x2 x3 : Vec Ideal S64x64 .f32) (x4 : Vec Ideal S1x64 .f32) :
    k0_pay7 (F := Ideal) x0 x1 x2 x3 x4 = rsCol (k0_pay2 x0 x1 x2 x3 x4) := rfl

theorem pay8_eq (v19 v21 : FVec Ideal S1x64 .f32) (v34 : FVec Ideal S5000x64 .f32) (v37 : FVec Ideal S5000x1 .f32)
    (v46 : Vec Ideal S64x64 .f32) (v49 v53 v55 : Vec Ideal S1x64 .f32) :
    k0_pay8 (F := Ideal) v19 v21 v34 v37 v46 v49 v53 v55
      = truncf .bf16 (actBlk (cenBlk (linBlk (truncf .bf16 (actBlk v34 v37 v19 v21) bitsLt_bf16_f32) v46 v49))
          (rsCol (linBlk (truncf .bf16 (actBlk v34 v37 v19 v21) bitsLt_bf16_f32) v46 v49))
          (shapeCast S1x64 v53 shapeCasts_S1x64_S1x64) (shapeCast S1x64 v55 shapeCasts_S1x64_S1x64)) bitsLt_bf16_f32 := rfl

theorem pay1_eq (v80 : FVec Ideal S5000x64 .bf16) (v81 : Vec Ideal S64x64 .f32) (v84 : Vec Ideal S1x64 .f32) :
    k0_pay1 (F := Ideal) v80 v81 v84 = linBlk v80 v81 v84 := rfl

theorem hz : (![0, 0] : Fin 2 → Nat) = fun _ => 0 := funext fun a => by fin_cases a <;> rfl

/-! ## The output block -/

/-- What the body leaves in its output block, at row `r` and column `q`: the perceptron of row `r`. -/
theorem block_apply (x0 x1 : Vec Ideal S5000x64 .f32) (x2 x3 : Vec Ideal S64x64 .f32) (x4 x5 x6 : Vec Ideal S1x64 .f32)
    (x7 : Vec Ideal S64x64 .f32) (x8 x9 x10 : Vec Ideal S1x64 .f32) (x11 : Vec Ideal S64x64 .f32) (x12 : Vec Ideal S1x64 .f32)
    (r : Fin 5000) (q : Fin 64) :
    out0_13 (F := Ideal) x0 x1 x2 x3 x4 x5 x6 x7 x8 x9 x10 x11 x12 (ix2 r q)
      = tail (firstLayer (fun k => x0 (ix2 r k)) (fun k => x1 (ix2 r k)) (fun k j => x2 (ix2 k j)) (fun k j => x3 (ix2 k j)) (fun j => x4 (ix2 (0 : Fin 1) j)))
          (fun j => x5 (ix2 (0 : Fin 1) j)) (fun j => x6 (ix2 (0 : Fin 1) j)) (fun k j => x7 (ix2 k j)) (fun j => x8 (ix2 (0 : Fin 1) j))
          (fun j => x9 (ix2 (0 : Fin 1) j)) (fun j => x10 (ix2 (0 : Fin 1) j)) (fun k j => x11 (ix2 k j)) (fun j => x12 (ix2 (0 : Fin 1) j)) q := by
  unfold out0_13
  rw [View.canon_unit_zero hz]
  simp only [View.ld_unit_zero (S := S5000x64) hz, View.ld_unit_zero (S := S64x64) hz, View.ld_unit_zero (S := S1x64) hz]
  rw [pay1_eq, pay8_eq, pay6_eq, pay7_eq, linBlk_apply]
  simp only [truncf_apply, normBlk_apply, linBlk_apply, pay2_apply, shapeCast_self, k0_pay3, k0_pay4]
  rfl

end Cert.KernelIdeal.Block

end
-- ==== Proof.KernelValue.lean ====
/-
  The kernel's result array as one function of the arrays its windows read.

  The grid has 20 points; at point `t` the message window and the feature window hold rows `5000·t … 5000·t + 4999`
  of their arrays, the eleven parameter windows hold their whole (small) arrays, and the output window's block is
  written back to the same rows of the result. So row `5000·t + r` of the result is the body's output row `r` at
  point `t`, which depends on row `5000·t + r` of the messages and of the features alone; and the 20 blocks cover
  the result. Hence the result is, index by index, the perceptron of the corresponding rows.
-/
import proofs.«173184_j3255585210371_2_alg».proof.Proof.Gen.KernelIdeal.Value
import proofs.«173184_j3255585210371_2_alg».proof.Proof.KernelBlock
import Idealize.ShloMosaic.Lib.Pipeline.Value

set_option Elab.async false

noncomputable section

namespace Cert.KernelIdeal.Whole

open Cert.KernelIdeal Cert.KernelIdeal.Gen Idealize.ShloMosaic Idealize.ShloMosaic.TcCoe Idealize.SL.Sem
open Idealize.ShloMosaic.ValueIdx Cert.EdgeMLP
open Idealize.ShloMosaic.Pipeline (Dat)

/-- The result as a function of the thirteen arrays the windows read, with the parameter vectors as `[1, 64]` rows and
    the first weight matrix as its two halves. -/
def GK (mi x : S100000x64.Idx → EReal) (Wa Wb : S64x64.Idx → EReal) (b1 g1 be1 : S1x64.Idx → EReal) (W2 : S64x64.Idx → EReal)
    (b2 g2 be2 : S1x64.Idx → EReal) (W3 : S64x64.Idx → EReal) (b3 : S1x64.Idx → EReal) : S100000x64.Idx → EReal := fun i =>
  tail (firstLayer (fun k => mi (ix2 (i 0) k)) (fun k => x (ix2 (i 0) k)) (fun k j => Wa (ix2 k j)) (fun k j => Wb (ix2 k j))
      (fun j => b1 (ix2 (0 : Fin 1) j)))
    (fun j => g1 (ix2 (0 : Fin 1) j)) (fun j => be1 (ix2 (0 : Fin 1) j)) (fun k j => W2 (ix2 k j)) (fun j => b2 (ix2 (0 : Fin 1) j))
    (fun j => g2 (ix2 (0 : Fin 1) j)) (fun j => be2 (ix2 (0 : Fin 1) j)) (fun k j => W3 (ix2 k j)) (fun j => b3 (ix2 (0 : Fin 1) j)) (i 1)

/-- `GK` at row `p`, column `q`. -/
theorem GK_apply (mi x : S100000x64.Idx → EReal) (Wa Wb : S64x64.Idx → EReal) (b1 g1 be1 : S1x64.Idx → EReal) (W2 : S64x64.Idx → EReal)
    (b2 g2 be2 : S1x64.Idx → EReal) (W3 : S64x64.Idx → EReal) (b3 : S1x64.Idx → EReal) (p : Fin 100000) (q : Fin 64) :
    GK mi x Wa Wb b1 g1 be1 W2 b2 g2 be2 W3 b3 (ix2 p q)
      = tail (firstLayer (fun k => mi (ix2 p k)) (fun k => x (ix2 p k)) (fun k j => Wa (ix2 k j)) (fun k j => Wb (ix2 k j))
          (fun j => b1 (ix2 (0 : Fin 1) j)))
        (fun j => g1 (ix2 (0 : Fin 1) j)) (fun j => be1 (ix2 (0 : Fin 1) j)) (fun k j => W2 (ix2 k j)) (fun j => b2 (ix2 (0 : Fin 1) j))
        (fun j => g2 (ix2 (0 : Fin 1) j)) (fun j => be2 (ix2 (0 : Fin 1) j)) (fun k j => W3 (ix2 k j)) (fun j => b3 (ix2 (0 : Fin 1) j)) q := rfl

variable (m : (ℓ : Loc nD τ sig) → Buf (Elt Ideal) ℓ) (ρ : Dev nD → PrngReg)

/-- The printed index maps over the grid: the message, feature and output windows are at block `(t, 0)`, every
    parameter window at block `(0, 0)`. -/
theorem index_facts : ∀ t : Fin cfg0.N,
    (win0_13.index t (0 : Fin 2) = t.val ∧ win0_13.index t (1 : Fin 2) = 0)
    ∧ (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0) :=
  (by decide +kernel : ∀ t : Fin grid0.N, _)

theorem point_lt (t : Fin cfg0.N) : t.val < 20 := lt_of_lt_of_eq t.isLt N_0

/-- Row `r` of point `t`'s block is row `5000·t + r` of the array. -/
def rowOf (t : Fin cfg0.N) (r : Fin 5000) : Fin 100000 := ⟨t.val * 5000 + r.val, by have := point_lt t; have := r.isLt; omega⟩

/-- Row `r` of window 0's block at point `t` is row `5000·t + r` of its array, whatever the array holds. -/
theorem blk0 (c : Dev nD) (X : Buf (Elt Ideal) ((c : Thread nD τ).loc (Pipeline.arrRef spec0 0))) (t : Fin cfg0.N) (r : Fin 5000) (k : Fin 64) :
    View.read (Elt Ideal) ((View.whole main_v27).slice ((win0 0).rect t)) X (ix2 r k) = X (ix2 (rowOf t r) k) := by
  obtain ⟨e0, e1⟩ := (index_facts t).2.1
  show X (((cfg0.win 0).blk t).view.emb (ix2 r k)) = _
  refine congrArg X (funext fun a => Fin.ext ?_)
  match a with
  | ⟨0, _⟩ => show win0_0.index t (0 : Fin 2) * 5000 + 1 * r.val = t.val * 5000 + r.val; omega
  | ⟨1, _⟩ => show win0_0.index t (1 : Fin 2) * 64 + 1 * k.val = k.val; omega

/-- Row `r` of window 1's block at point `t` is row `5000·t + r` of its array, whatever the array holds. -/
theorem blk1 (c : Dev nD) (X : Buf (Elt Ideal) ((c : Thread nD τ).loc (Pipeline.arrRef spec0 1))) (t : Fin cfg0.N) (r : Fin 5000) (k : Fin 64) :
    View.read (Elt Ideal) ((View.whole main_arg0).slice ((win0 1).rect t)) X (ix2 r k) = X (ix2 (rowOf t r) k) := by
  obtain ⟨e0, e1⟩ := (index_facts t).2.2.1
  show X (((cfg0.win 1).blk t).view.emb (ix2 r k)) = _
  refine congrArg X (funext fun a => Fin.ext ?_)
  match a with
  | ⟨0, _⟩ => show win0_1.index t (0 : Fin 2) * 5000 + 1 * r.val = t.val * 5000 + r.val; omega
  | ⟨1, _⟩ => show win0_1.index t (1 : Fin 2) * 64 + 1 * k.val = k.val; omega

/-- Window 2's block at every point is its whole array. -/
theorem blk2 (c : Dev nD) (X : Buf (Elt Ideal) ((c : Thread nD τ).loc (Pipeline.arrRef spec0 2))) (t : Fin cfg0.N) (k j : Fin 64) :
    View.read (Elt Ideal) ((View.whole main_v28).slice ((win0 2).rect t)) X (ix2 k j) = X (ix2 k j) := by
  obtain ⟨e0, e1⟩ := (index_facts t).2.2.2.1
  show X (((cfg0.win 2).blk t).view.emb (ix2 k j)) = _
  refine congrArg X (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

/-- Window 3's block at every point is its whole array. -/
theorem blk3 (c : Dev nD) (X : Buf (Elt Ideal) ((c : Thread nD τ).loc (Pipeline.arrRef spec0 3))) (t : Fin cfg0.N) (k j : Fin 64) :
    View.read (Elt Ideal) ((View.whole main_v29).slice ((win0 3).rect t)) X (ix2 k j) = X (ix2 k j) := by
  obtain ⟨e0, e1⟩ := (index_facts t).2.2.2.2.1
  show X (((cfg0.win 3).blk t).view.emb (ix2 k j)) = _
  refine congrArg X (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- Window 7's block at every point is its whole array. -/
theorem blk7 (c : Dev nD) (X : Buf (Elt Ideal) ((c : Thread nD τ).loc (Pipeline.arrRef spec0 7))) (t : Fin cfg0.N) (k j : Fin 64) :
    View.read (Elt Ideal) ((View.whole main_arg7).slice ((win0 7).rect t)) X (ix2 k j) = X (ix2 k j) := by
  obtain ⟨e0, e1⟩ := (index_facts t).2.2.2.2.2.2.2.2.1
  show X (((cfg0.win 7).blk t).view.emb (ix2 k j)) = _
  refine congrArg X (funext fun a => Fin.ext ?_)
  match a with
  | ⟨0, _⟩ => show win0_7.index t (0 : Fin 2) * 64 + 1 * k.val = k.val; omega
  | ⟨1, _⟩ => show win0_7.index t (1 : Fin 2) * 64 + 1 * j.val = j.val; omega

/-- Window 11's block at every point is its whole array. -/
theorem blk11 (c : Dev nD) (X : Buf (Elt Ideal) ((c : Thread nD τ).loc (Pipeline.arrRef spec0 11))) (t : Fin cfg0.N) (k j : Fin 64) :
    View.read (Elt Ideal) ((View.whole main_arg11).slice ((win0 11).rect t)) X (ix2 k j) = X (ix2 k j) := by
  obtain ⟨e0, e1⟩ := (index_facts t).2.2.2.2.2.2.2.2.2.2.2.2.1
  show X (((cfg0.win 11).blk t).view.emb (ix2 k j)) = _
  refine congrArg X (funext fun a => Fin.ext ?_)
  match a with
  | ⟨0, _⟩ => show win0_11.index t (0 : Fin 2) * 64 + 1 * k.val = k.val; omega
  | ⟨1, _⟩ => show win0_11.index t (1 : Fin 2) * 64 + 1 * j.val = j.val; omega

/-- Window 4's block at every point is its whole array, a row. -/
theorem blk4 (c : Dev nD) (X : Buf (Elt Ideal) ((c : Thread nD τ).loc (Pipeline.arrRef spec0 4))) (t : Fin cfg0.N) (j : Fin 64) :
    View.read (Elt Ideal) ((View.whole main_v30).slice ((win0 4).rect t)) X (ix2 (0 : Fin 1) j) = X (ix2 (0 : Fin 1) j) := by
  obtain ⟨e0, e1⟩ := (index_facts t).2.2.2.2.2.1
  show X (((cfg0.win 4).blk t).view.emb (ix2 (0 : Fin 1) j)) = _
  refine congrArg X (funext fun a => Fin.ext ?_)
  match a with
  | ⟨0, _⟩ => show win0_4.index t (0 : Fin 2) * 1 + 1 * 0 = 0; omega
  | ⟨1, _⟩ => show win0_4.index t (1 : Fin 2) * 64 + 1 * j.val = j.val; omega

/-- Window 5's block at every point is its whole array, a row. -/
theorem blk5 (c : Dev nD) (X : Buf (Elt Ideal) ((c : Thread nD τ).loc (Pipeline.arrRef spec0 5))) (t : Fin cfg0.N) (j : Fin 64) :
    View.read (Elt Ideal) ((View.whole main_v31).slice ((win0 5).rect t)) X (ix2 (0 : Fin 1) j) = X (ix2 (0 : Fin 1) j) := by
  obtain ⟨e0, e1⟩ := (index_facts t).2.2.2.2.2.2.1
  show X (((cfg0.win 5).blk t).view.emb (ix2 (0 : Fin 1) j)) = _
  refine congrArg X (funext fun a => Fin.ext ?_)
  match a with
  | ⟨0, _⟩ => show win0_5.index t (0 : Fin 2) * 1 + 1 * 0 = 0; omega
  | ⟨1, _⟩ => show win0_5.index t (1 : Fin 2) * 64 + 1 * j.val = j.val; omega

/-- Window 6's block at every point is its whole array, a row. -/
theorem blk6 (c : Dev nD) (X : Buf (Elt Ideal) ((c : Thread nD τ).loc (Pipeline.arrRef spec0 6))) (t : Fin cfg0.N) (j : Fin 64) :
    View.read (Elt Ideal) ((View.whole main_v32).slice ((win0 6).rect t)) X (ix2 (0 : Fin 1) j) = X (ix2 (0 : Fin 1) j) := by
  obtain ⟨e0, e1⟩ := (index_facts t).2.2.2.2.2.2.2.1
  show X (((cfg0.win 6).blk t).view.emb (ix2 (0 : Fin 1) j)) = _
  refine congrArg X (funext fun a => Fin.ext ?_)
  match a with
  | ⟨0, _⟩ => show win0_6.index t (0 : Fin 2) * 1 + 1 * 0 = 0; omega
  | ⟨1, _⟩ => show win0_6.index t (1 : Fin 2) * 64 + 1 * j.val = j.val; omega

/-- Window 8's block at every point is its whole array, a row. -/
theorem blk8 (c : Dev nD) (X : Buf (Elt Ideal) ((c : Thread nD τ).loc (Pipeline.arrRef spec0 8))) (t : Fin cfg0.N) (j : Fin 64) :
    View.read (Elt Ideal) ((View.whole main_v33).slice ((win0 8).rect t)) X (ix2 (0 : Fin 1) j) = X (ix2 (0 : Fin 1) j) := by
  obtain ⟨e0, e1⟩ := (index_facts t).2.2.2.2.2.2.2.2.2.1
  show X (((cfg0.win 8).blk t).view.emb (ix2 (0 : Fin 1) j)) = _
  refine congrArg X (funext fun a => Fin.ext ?_)
  match a with
  | ⟨0, _⟩ => show win0_8.index t (0 : Fin 2) * 1 + 1 * 0 = 0; omega
  | ⟨1, _⟩ => show win0_8.index t (1 : Fin 2) * 64 + 1 * j.val = j.val; omega

/-- Window 9's block at every point is its whole array, a row. -/
theorem blk9 (c : Dev nD) (X : Buf (Elt Ideal) ((c : Thread nD τ).loc (Pipeline.arrRef spec0 9))) (t : Fin cfg0.N) (j : Fin 64) :
    View.read (Elt Ideal) ((View.whole main_v34).slice ((win0 9).rect t)) X (ix2 (0 : Fin 1) j) = X (ix2 (0 : Fin 1) j) := by
  obtain ⟨e0, e1⟩ := (index_facts t).2.2.2.2.2.2.2.2.2.2.1
  show X (((cfg0.win 9).blk t).view.emb (ix2 (0 : Fin 1) j)) = _
  refine congrArg X (funext fun a => Fin.ext ?_)
  match a with
  | ⟨0, _⟩ => show win0_9.index t (0 : Fin 2) * 1 + 1 * 0 = 0; omega
  | ⟨1, _⟩ => show win0_9.index t (1 : Fin 2) * 64 + 1 * j.val = j.val; omega

/-- Window 10's block at every point is its whole array, a row. -/
theorem blk10 (c : Dev nD) (X : Buf (Elt Ideal) ((c : Thread nD τ).loc (Pipeline.arrRef spec0 10))) (t : Fin cfg0.N) (j : Fin 64) :
    View.read (Elt Ideal) ((View.whole main_v35).slice ((win0 10).rect t)) X (ix2 (0 : Fin 1) j) = X (ix2 (0 : Fin 1) j) := by
  obtain ⟨e0, e1⟩ := (index_facts t).2.2.2.2.2.2.2.2.2.2.2.1
  show X (((cfg0.win 10).blk t).view.emb (ix2 (0 : Fin 1) j)) = _
  refine congrArg X (funext fun a => Fin.ext ?_)
  match a with
  | ⟨0, _⟩ => show win0_10.index t (0 : Fin 2) * 1 + 1 * 0 = 0; omega
  | ⟨1, _⟩ => show win0_10.index t (1 : Fin 2) * 64 + 1 * j.val = j.val; omega

/-- Window 12's block at every point is its whole array, a row. -/
theorem blk12 (c : Dev nD) (X : Buf (Elt Ideal) ((c : Thread nD τ).loc (Pipeline.arrRef spec0 12))) (t : Fin cfg0.N) (j : Fin 64) :
    View.read (Elt Ideal) ((View.whole main_v36).slice ((win0 12).rect t)) X (ix2 (0 : Fin 1) j) = X (ix2 (0 : Fin 1) j) := by
  obtain ⟨e0, e1⟩ := (index_facts t).2.2.2.2.2.2.2.2.2.2.2.2.2
  show X (((cfg0.win 12).blk t).view.emb (ix2 (0 : Fin 1) j)) = _
  refine congrArg X (funext fun a => Fin.ext ?_)
  match a with
  | ⟨0, _⟩ => show win0_12.index t (0 : Fin 2) * 1 + 1 * 0 = 0; omega
  | ⟨1, _⟩ => show win0_12.index t (1 : Fin 2) * 64 + 1 * j.val = j.val; omega

/-- Entry `(r, q)` of the output window's block at point `t` is entry `(5000·t + r, q)` of the result. -/
theorem out_emb (t : Fin cfg0.N) (r : Fin 5000) (q : Fin 64) :
    ((cfg0.win 13).blk t).view.emb (ix2 r q) = ix2 (rowOf t r) q := by
  obtain ⟨e0, e1⟩ := (index_facts t).1
  funext a; apply Fin.ext
  match a with
  | ⟨0, _⟩ => show win0_13.index t (0 : Fin 2) * 5000 + 1 * r.val = t.val * 5000 + r.val; omega
  | ⟨1, _⟩ => show win0_13.index t (1 : Fin 2) * 64 + 1 * q.val = q.val; omega

/-- A block whose entry `(r, q)` is entry `(5000·t + r, q)` of an array function `Gf` is point `t`'s block of `Gf`. -/
theorem cut_eq_read (t : Fin cfg0.N) (Pb : S5000x64.Idx → EReal) (Gf : S100000x64.Idx → EReal)
    (h : ∀ (r : Fin 5000) (q : Fin 64), Pb (ix2 r q) = Gf (ix2 (rowOf t r) q)) :
    (cfg0.win 13).cut (grid0.coords t) Pb = ((cfg0.win 13).blk t).view.read (Elt Ideal) Gf := by
  funext y
  obtain ⟨r, q, rfl⟩ : ∃ (r : Fin 5000) (q : Fin 64), y = ix2 r q := ⟨y 0, y 1, eq_ix2 y⟩
  show Pb (ix2 r q) = Gf (((cfg0.win 13).blk t).view.emb (ix2 r q))
  rw [out_emb]
  exact h r q

/-- WHAT POINT `t` WRITES BACK is block `t` of `GK` of the arrays as the region finds them. -/
theorem flushed_eq (c : Dev nD) (t : Fin cfg0.N) :
    (dats m 0 c).flushed 13 t = ((cfg0.win 13).blk t).view.read (Elt Ideal)
      (GK (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))
        (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12))) := by
  rw [Value.flushed13]
  refine cut_eq_read t _ _ fun r q => ?_
  rw [GK_apply]
  refine (Block.block_apply (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) r q).trans ?_
  simp only [iblk, blk0, blk1, blk2, blk3, blk4, blk5, blk6, blk7, blk8, blk9, blk10, blk11, blk12]

/-- An index of the array is in point `t`'s block iff each coordinate is in the block's range on its axis. -/
theorem mem_blk (t : Fin cfg0.N) (i : S100000x64.Idx) :
    i ∈ ((cfg0.win 13).blk t).view.set ↔ ∀ a : Fin 2, win0_13.index t a * S5000x64.size a ≤ (i a).val ∧ (i a).val < win0_13.index t a * S5000x64.size a + S5000x64.size a := by
  show i ∈ ((View.whole main_v37).slice (win0_13.rect t)).set ↔ _
  rw [View.set_slice_whole, Rect.mem_set_unit]
  exact Iff.rfl

/-- Every index of the result is in some point's block: row `p` in the block of point `p / 5000`. -/
theorem covered (i : S100000x64.Idx) : ∃ t : Fin cfg0.N, (cfg0.win 13).flush t = true ∧ i ∈ ((cfg0.win 13).blk t).view.set := by
  have hi0 : (i 0).val < 100000 := (i 0).isLt
  have hi1 : (i 1).val < 64 := (i 1).isLt
  let t : Fin cfg0.N := ⟨(i 0).val / 5000, lt_of_lt_of_eq (by omega : (i 0).val / 5000 < 20) N_0.symm⟩
  have htv : t.val = (i 0).val / 5000 := rfl
  obtain ⟨⟨o0, o1⟩, -⟩ := index_facts t
  refine ⟨t, flush0_13 t, ?_⟩
  rw [mem_blk]
  intro a
  match a with
  | ⟨0, _⟩ => show win0_13.index t (0 : Fin 2) * 5000 ≤ (i 0).val ∧ (i 0).val < win0_13.index t (0 : Fin 2) * 5000 + 5000; omega
  | ⟨1, _⟩ => show win0_13.index t (1 : Fin 2) * 64 ≤ (i 1).val ∧ (i 1).val < win0_13.index t (1 : Fin 2) * 64 + 64; omega

/-- THE RESULT ARRAY after the run. -/
theorem final (c : Dev nD) : (dats m 0 c).arrAt 13 cfg0.N
    = GK (V m c (Pipeline.arrRef spec0 0)) (V m c (Pipeline.arrRef spec0 1)) (V m c (Pipeline.arrRef spec0 2)) (V m c (Pipeline.arrRef spec0 3)) (V m c (Pipeline.arrRef spec0 4)) (V m c (Pipeline.arrRef spec0 5)) (V m c (Pipeline.arrRef spec0 6))
        (V m c (Pipeline.arrRef spec0 7)) (V m c (Pipeline.arrRef spec0 8)) (V m c (Pipeline.arrRef spec0 9)) (V m c (Pipeline.arrRef spec0 10)) (V m c (Pipeline.arrRef spec0 11)) (V m c (Pipeline.arrRef spec0 12)) :=
  (dats m 0 c).arrAt_eq_of_cover 13 _ (fun t _ => flushed_eq m c t) covered

end Cert.KernelIdeal.Whole

end
-- ==== Proof.KernelHost.lean ====
/-
  What the kernel's region finds in the arrays its windows read.

  Before the region, the host computes the message array: every edge `(s, t)` with weight `w` sends `w · x[s]` to node `t`
  and `w · x[t]` to node `s`; the kernel's program lists the 2·10⁶ contributions as ONE list — first the 10⁶ rows
  `w · x[s]` destined to the end nodes, then the 10⁶ rows `w · x[t]` destined to the start nodes — and sums each
  node's contributions in one segment sum. It also cuts the first weight matrix into its top and bottom halves and
  lays each bias, scale and shift vector out as a `[1, 64]` row. Each of these arrays, as the region finds it, is
  the corresponding operation of the arguments as launched.
-/
import proofs.«173184_j3255585210371_2_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem Idealize.ShloMosaic.StableHlo

/-- The start nodes of the edges: row 0 of the edge list. -/
def startRow (ei : IVec S2x1000000 32) : IVec S1000000 32 :=
  shapeCast _ (extractStridedSlice S1x1000000 ![0, 0] ei slices_S2x1000000_S1x1000000_0_0) shapeCasts_S1x1000000_S1000000

/-- The end nodes of the edges: row 1 of the edge list. -/
def endRow (ei : IVec S2x1000000 32) : IVec S1000000 32 :=
  shapeCast _ (extractStridedSlice S1x1000000 ![1, 0] ei slices_S2x1000000_S1x1000000_1_0) shapeCasts_S1x1000000_S1000000

/-- A node list with negative entries counted from the end, as an index column. -/
def wrapCol (v : IVec S1000000 32) : IVec S1000000x1 32 :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 100000#32))) v)

/-- The rows `w · x[v]`, one per edge. -/
def weighted (x : FVec Ideal S100000x64 .f32) (e : FVec Ideal S1000000 .f32) (v : IVec S1000000 32) : FVec Ideal S1000000x64 .f32 :=
  mulf (broadcastInDim S1000000x64 ![0, 1] bcast_S1000000x1_S1000000x64_0_1 (broadcastInDim S1000000x1 ![0] bcast_S1000000_S1000000x1_0 e))
    (Host.gather gather_S100000x64_S1000000x1_S1000000x64_1_0_n_n_0_1_164 x (wrapCol v))

/-- The message array as the kernel's program computes it: one segment sum over the doubled edge list. -/
def messages (x : FVec Ideal S100000x64 .f32) (e : FVec Ideal S1000000 .f32) (ei : IVec S2x1000000 32) : FVec Ideal S100000x64 .f32 :=
  Host.scatterAdd scatter_S100000x64_S2000000x1_S2000000x64_1_0_0_1
    (broadcastInDim S100000x64 ![] bcast_S_S100000x64 (constant (F := Ideal) S_ .f32 0x00000000#32))
    (broadcastInDim S2000000x1 ![0] bcast_S2000000_S2000000x1_0
      (concatenate S2000000 0 [⟨S1000000, endRow ei⟩, ⟨S1000000, startRow ei⟩] concatenates_S1000000_S1000000_S2000000_d0))
    (concatenate S2000000x64 0 [⟨S1000000x64, weighted x e (startRow ei)⟩, ⟨S1000000x64, weighted x e (endRow ei)⟩]
      concatenates_S1000000x64_S1000000x64_S2000000x64_d0)

variable (m : (ℓ : Loc nD τ sig) → Buf (Elt Ideal) ℓ)

set_option maxRecDepth 8192 in
set_option maxHeartbeats 4000000 in
/-- Window 0 reads the message array. -/
theorem V_messages (c : Dev nD) :
    V m c main_v27 = messages (m ((c : Thread nD τ).loc main_arg0)) (m ((c : Thread nD τ).loc main_arg1)) (m ((c : Thread nD τ).loc main_arg2)) := by
  dsimp only [V, hostOps0]
  after_results_simp <;> rfl

set_option maxRecDepth 8192 in
set_option maxHeartbeats 4000000 in
/-- Window 2 reads the top half of the first weight matrix. -/
theorem V_top (c : Dev nD) :
    V m c main_v28 = extractStridedSlice S64x64 ![0, 0] (m ((c : Thread nD τ).loc main_arg3)) slices_S128x64_S64x64_0_0 := by
  dsimp only [V, hostOps0]
  after_results_simp <;> rfl

set_option maxRecDepth 8192 in
set_option maxHeartbeats 4000000 in
/-- Window 3 reads its bottom half. -/
theorem V_bottom (c : Dev nD) :
    V m c main_v29 = extractStridedSlice S64x64 ![64, 0] (m ((c : Thread nD τ).loc main_arg3)) slices_S128x64_S64x64_64_0 := by
  dsimp only [V, hostOps0]
  after_results_simp <;> rfl

set_option maxRecDepth 8192 in
set_option maxHeartbeats 4000000 in
/-- Windows 4, 5, 6, 8, 9, 10, 12 read the bias, scale and shift vectors laid out as rows. -/
theorem V_b1 (c : Dev nD) : V m c main_v30 = shapeCast _ (m ((c : Thread nD τ).loc main_arg4)) shapeCasts_S64_S1x64 := by
  dsimp only [V, hostOps0]
  after_results_simp <;> rfl

set_option maxRecDepth 8192 in
set_option maxHeartbeats 4000000 in
theorem V_g1 (c : Dev nD) : V m c main_v31 = shapeCast _ (m ((c : Thread nD τ).loc main_arg5)) shapeCasts_S64_S1x64 := by
  dsimp only [V, hostOps0]
  after_results_simp <;> rfl

set_option maxRecDepth 8192 in
set_option maxHeartbeats 4000000 in
theorem V_be1 (c : Dev nD) : V m c main_v32 = shapeCast _ (m ((c : Thread nD τ).loc main_arg6)) shapeCasts_S64_S1x64 := by
  dsimp only [V, hostOps0]
  after_results_simp <;> rfl

set_option maxRecDepth 8192 in
set_option maxHeartbeats 4000000 in
theorem V_b2 (c : Dev nD) : V m c main_v33 = shapeCast _ (m ((c : Thread nD τ).loc main_arg8)) shapeCasts_S64_S1x64 := by
  dsimp only [V, hostOps0]
  after_results_simp <;> rfl

set_option maxRecDepth 8192 in
set_option maxHeartbeats 4000000 in
theorem V_g2 (c : Dev nD) : V m c main_v34 = shapeCast _ (m ((c : Thread nD τ).loc main_arg9)) shapeCasts_S64_S1x64 := by
  dsimp only [V, hostOps0]
  after_results_simp <;> rfl

set_option maxRecDepth 8192 in
set_option maxHeartbeats 4000000 in
theorem V_be2 (c : Dev nD) : V m c main_v35 = shapeCast _ (m ((c : Thread nD τ).loc main_arg10)) shapeCasts_S64_S1x64 := by
  dsimp only [V, hostOps0]
  after_results_simp <;> rfl

set_option maxRecDepth 8192 in
set_option maxHeartbeats 4000000 in
theorem V_b3 (c : Dev nD) : V m c main_v36 = shapeCast _ (m ((c : Thread nD τ).loc main_arg12)) shapeCasts_S64_S1x64 := by
  dsimp only [V, hostOps0]
  after_results_simp <;> rfl

end Cert.KernelIdeal.HostSide

end
-- ==== Proof.KernelRun.lean ====
/-
  The kernel's run, read: its result array is the perceptron of the message array and the arguments.

  The region finds the first weight matrix cut into its two halves and every parameter vector laid out as a
  `[1, 64]` row; entry `(k, j)` of the top half is entry `(k, j)` of the matrix, entry `(k, j)` of the bottom half is its
  entry `(64 + k, j)`, and entry `(0, j)` of a row is entry `j` of the vector. With these the function of the windows'
  arrays becomes the specification's function of the arguments.
-/
import proofs.«173184_j3255585210371_2_alg».proof.Proof.KernelValue
import proofs.«173184_j3255585210371_2_alg».proof.Proof.KernelHost
import Idealize.ShloMosaic.Lib.ValueLayout

noncomputable section

namespace Cert.KernelIdeal.RunValue

open Cert.KernelIdeal Cert.KernelIdeal.Gen Idealize.ShloMosaic Idealize.ShloMosaic.TcCoe Idealize.SL.Sem
open Idealize.ShloMosaic.ValueIdx Cert.EdgeMLP

theorem top_apply (W1 : S128x64.Idx → EReal) (k j : Fin 64) :
    extractStridedSlice S64x64 ![0, 0] W1 slices_S128x64_S64x64_0_0 (ix2 k j) = W1 (ix2 (⟨k.val, by omega⟩ : Fin 128) j) :=
  slice2_axis0_apply 0 W1 slices_S128x64_S64x64_0_0 k j _ (Nat.zero_add _).symm

theorem bottom_apply (W1 : S128x64.Idx → EReal) (k j : Fin 64) :
    extractStridedSlice S64x64 ![64, 0] W1 slices_S128x64_S64x64_64_0 (ix2 k j) = W1 (ix2 (⟨64 + k.val, by omega⟩ : Fin 128) j) :=
  slice2_axis0_apply 64 W1 slices_S128x64_S64x64_64_0 k j _ rfl

theorem row_apply (b : S64.Idx → EReal) (j : Fin 64) :
    shapeCast S1x64 b shapeCasts_S64_S1x64 (ix2 (0 : Fin 1) j) = b (ix1 j) :=
  shapeCast_a_1a_apply b shapeCasts_S64_S1x64 0 j

/-- The function of the windows' arrays is the specification's function of the arguments. -/
theorem GK_eq_G (mi x : S100000x64.Idx → EReal) (W1 : S128x64.Idx → EReal) (b1 g1 be1 : S64.Idx → EReal)
    (W2 : S64x64.Idx → EReal) (b2 g2 be2 : S64.Idx → EReal) (W3 : S64x64.Idx → EReal) (b3 : S64.Idx → EReal) :
    Whole.GK mi x (extractStridedSlice S64x64 ![0, 0] W1 slices_S128x64_S64x64_0_0)
        (extractStridedSlice S64x64 ![64, 0] W1 slices_S128x64_S64x64_64_0)
        (shapeCast S1x64 b1 shapeCasts_S64_S1x64) (shapeCast S1x64 g1 shapeCasts_S64_S1x64) (shapeCast S1x64 be1 shapeCasts_S64_S1x64) W2
        (shapeCast S1x64 b2 shapeCasts_S64_S1x64) (shapeCast S1x64 g2 shapeCasts_S64_S1x64) (shapeCast S1x64 be2 shapeCasts_S64_S1x64) W3
        (shapeCast S1x64 b3 shapeCasts_S64_S1x64)
      = G mi x W1 b1 g1 be1 W2 b2 g2 be2 W3 b3 := by
  funext i
  unfold Whole.GK G
  simp only [top_apply, bottom_apply, row_apply]

variable (m : (ℓ : Loc nD τ sig) → Buf (Elt Ideal) ℓ) (ρ : Dev nD → PrngReg)

/-- The result array after the run, as the specification's function of the arguments. -/
theorem result_eq (c : Dev nD) : (dats m 0 c).arrAt 13 cfg0.N
    = G (HostSide.messages (m ((c : Thread nD τ).loc main_arg0)) (m ((c : Thread nD τ).loc main_arg1)) (m ((c : Thread nD τ).loc main_arg2)))
        (m ((c : Thread nD τ).loc main_arg0)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) (m ((c : Thread nD τ).loc main_arg12)) := by
  rw [Whole.final]
  show Whole.GK (V m c main_v27) (V m c main_arg0) (V m c main_v28) (V m c main_v29) (V m c main_v30) (V m c main_v31) (V m c main_v32)
      (V m c main_arg7) (V m c main_v33) (V m c main_v34) (V m c main_v35) (V m c main_arg11) (V m c main_v36) = _
  rw [HostSide.V_messages, V_main_arg0, HostSide.V_top, HostSide.V_bottom, HostSide.V_b1, HostSide.V_g1, HostSide.V_be1,
    V_main_arg7, HostSide.V_b2, HostSide.V_g2, HostSide.V_be2, V_main_arg11, HostSide.V_b3]
  exact GK_eq_G _ _ _ _ _ _ _ _ _ _ _ _

/-- Every weakly fair execution of the kernel's program ends with its result at that function and its arguments as
    launched. -/
theorem run : θ_run defs (onTc (τ := τ) (main (F := Ideal))) ⟨m, fun _ => 0, ρ⟩ fun r => ∀ c : Dev nD,
      r.2.mem ((c : Thread nD τ).loc main_v37)
        = G (HostSide.messages (m ((c : Thread nD τ).loc main_arg0)) (m ((c : Thread nD τ).loc main_arg1)) (m ((c : Thread nD τ).loc main_arg2)))
            (m ((c : Thread nD τ).loc main_arg0)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8)) (m ((c : Thread nD τ).loc main_arg9)) (m ((c : Thread nD τ).loc main_arg10))
            (m ((c : Thread nD τ).loc main_arg11)) (m ((c : Thread nD τ).loc main_arg12))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (result_eq m c), (h c).2⟩) (Value.run_blocks m ρ)

end Cert.KernelIdeal.RunValue

end
-- ==== Proof.LibHostRowForms.lean ====
/-
  Host reductions and broadcasts of matrices, read at an index by coordinates, over the extended reals.

  A host sum of a matrix `[a, b]` from the zero word along its second axis is, at `i`, the sum of row `i`; along its
  first axis, at `j`, the sum of column `j`; a host maximum along the second axis from the word of minus infinity
  is the fold of `max` over the row. A vector `[a]` broadcast to a column `[a, 1]`, a column `[a, 1]` or a row
  `[1, b]` broadcast to `[a, b]`, and a vector `[b]` broadcast to a row `[1, b]` read the entry their kept coordinate
  names. Nothing here needs an entry to be finite.
-/
import Idealize.ShloMosaic.PureOps.Ideal.Laws
import Idealize.ShloMosaic.Lib.Pipeline.Value
import Idealize.ShloMosaic.Lib.ValueIdx

noncomputable section

open scoped BigOperators

namespace Cert.HostRowForms

open Idealize.ShloMosaic Idealize.ShloMosaic.ValueIdx

/-- The matrix index that reduces to `i` along the second axis and has `k` there is `(i, k)`. -/
theorem lift_axis1 {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- The matrix index that reduces to `j` along the first axis and has `g` there is `(g, j)`. -/
theorem lift_axis0 {a b : ℕ} (h : (⟨2, ![a, b]⟩ : Shape).Reduces [0] ⟨1, ![b]⟩) (j : Fin b)
    (g : Fin ((⟨2, ![a, b]⟩ : Shape).size 0)) : h.lift (ix1 j) g = ix2 (⟨g.val, g.isLt⟩ : Fin a) j := by
  funext d; apply Fin.ext
  match d with
  | ⟨0, _⟩ => rfl
  | ⟨1, _⟩ => rfl

/-- A host sum along the rows from the zero word, at `i`: the sum of row `i`. -/
theorem reduceAdd_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd x (constant (F := Ideal) u .f32 0x00000000#32) h' hu (ix1 i) = ∑ k : Fin b, x (ix2 i k) := by
  show Ideal.hostReduceAdd h' x (Ideal.ofBits .f32 0x00000000#32) (ix1 i) = _
  rw [Ideal.hostReduceAdd_single h' h, Ideal.ofBits_zero_f32, zero_add]
  exact Finset.sum_congr rfl fun k _ => congrArg x (lift_axis1 h i k)

/-- A host sum down the columns from the zero word, at `j`: the sum of column `j`. -/
theorem reduceAdd_cols {a b : ℕ} {u : Shape} (x : FVec Ideal ⟨2, ![a, b]⟩ .f32)
    (h' : (⟨2, ![a, b]⟩ : Shape).ReducesTo [0] ⟨1, ![b]⟩) (h : (⟨2, ![a, b]⟩ : Shape).Reduces [0] ⟨1, ![b]⟩)
    (hu : 0 < u.numel) (j : Fin b) :
    Host.reduceAdd x (constant (F := Ideal) u .f32 0x00000000#32) h' hu (ix1 j) = ∑ g : Fin a, x (ix2 g j) := by
  show Ideal.hostReduceAdd h' x (Ideal.ofBits .f32 0x00000000#32) (ix1 j) = _
  rw [Ideal.hostReduceAdd_single h' h, Ideal.ofBits_zero_f32, zero_add]
  exact Finset.sum_congr rfl fun g _ => congrArg x (lift_axis0 h j g)

/-- A host maximum along the rows from the word of minus infinity, at `i`: the fold of `max` over row `i`. -/
theorem reduceMax_rows {a b : ℕ} {u : Shape} (x : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := .f32)) x (constant (F := Ideal) u .f32 0xFF800000#32) h' hu (ix1 i)
      = (Finset.univ : Finset (Fin b)).fold max (Ideal.ofBits .f32 0xFF800000#32) (fun k => x (ix2 i k)) := by
  have hf : (FloatOps.maximumf (F := Ideal) (φ := .f32)) = (max : EReal → EReal → EReal) := rfl
  rw [hf, Host.reduce_eq_fold_single (max : EReal → EReal → EReal) x _ h' h hu (ix1 i)]
  exact congrArg (fun f => Finset.fold max (Ideal.ofBits .f32 0xFF800000#32) f (Finset.univ : Finset (Fin b)))
    (funext fun k => congrArg x (lift_axis1 h i k))

variable {α : Type}

/-- Where an operand axis goes under a `broadcast_in_dim`: an axis that is not a unit axis goes to a result axis of
    its own size, so when only one result axis `b` has that size, it goes to `b`. -/
theorem dims_eq_of_size {s t : Shape} {dims : Fin s.rank → Fin t.rank} (h : s.BroadcastsInDim t dims) (a : Fin s.rank)
    (b : Fin t.rank) (hne : s.size a ≠ 1) (huniq : ∀ b' : Fin t.rank, t.size b' = s.size a → b' = b) : dims a = b := by
  rcases h.2 a with h1 | h1
  · exact absurd h1 hne
  · exact huniq _ h1.symm

/-- A vector `[a]` broadcast along a new unit axis to the column `[a, 1]` reads, at `(i, u)`, the vector at `i`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (i : Fin a) (u : Fin 1) :
    broadcastInDim ⟨2, ![a, 1]⟩ dims h v (ix2 i u) = v (ix1 i) := by
  refine broadcastInDim_apply dims h v (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` broadcast to `[a, b]` reads, at `(i, j)`, the column at `(i, 0)`. -/
theorem bcast_a1_ab_apply {a b : ℕ} (v : (⟨2, ![a, 1]⟩ : Shape).Idx → α) (dims : Fin 2 → Fin 2) (h0 : dims 0 = 0)
    (h : (⟨2, ![a, 1]⟩ : Shape).BroadcastsInDim ⟨2, ![a, b]⟩ dims) (i : Fin a) (j : Fin b) :
    broadcastInDim ⟨2, ![a, b]⟩ dims h v (ix2 i j) = v (ix2 i (0 : Fin 1)) := by
  refine broadcastInDim_apply dims h v (ix2 i j) (ix2 i (0 : Fin 1)) fun ax => ?_
  match ax with
  | ⟨0, _⟩ =>
    show i.val = if a = 1 then 0 else ((ix2 i j : (⟨2, ![a, b]⟩ : Shape).Idx) (dims 0)).val
    rw [h0]
    split
    · have := i.isLt; omega
    · rfl
  | ⟨1, _⟩ => rfl

/-- A row `[1, b]` broadcast to `[a, b]` reads, at `(i, j)`, the row at `(0, j)`. -/
theorem bcast_1b_ab_apply {a b : ℕ} (v : (⟨2, ![1, b]⟩ : Shape).Idx → α) (dims : Fin 2 → Fin 2) (h1 : dims 1 = 1)
    (h : (⟨2, ![1, b]⟩ : Shape).BroadcastsInDim ⟨2, ![a, b]⟩ dims) (i : Fin a) (j : Fin b) :
    broadcastInDim ⟨2, ![a, b]⟩ dims h v (ix2 i j) = v (ix2 (0 : Fin 1) j) := by
  refine broadcastInDim_apply dims h v (ix2 i j) (ix2 (0 : Fin 1) j) fun ax => ?_
  match ax with
  | ⟨0, _⟩ => rfl
  | ⟨1, _⟩ =>
    show j.val = if b = 1 then 0 else ((ix2 i j : (⟨2, ![a, b]⟩ : Shape).Idx) (dims 1)).val
    rw [h1]
    split
    · have := j.isLt; omega
    · rfl

/-- A vector `[b]` broadcast along a new leading unit axis to the row `[1, b]` reads, at `(u, j)`, the vector at `j`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (j : Fin b) :
    broadcastInDim ⟨2, ![1, b]⟩ dims h v (ix2 u j) = v (ix1 j) := by
  refine broadcastInDim_apply dims h v (ix2 u j) (ix1 j) fun ax => ?_
  match ax with
  | ⟨0, _⟩ =>
    show j.val = if b = 1 then 0 else ((ix2 u j : (⟨2, ![1, b]⟩ : Shape).Idx) (dims 0)).val
    rw [hd]
    split
    · have := j.isLt; omega
    · rfl

/-- A rank-zero constant broadcast to any shape reads the constant's value everywhere. -/
theorem bcast_scalar_apply {t : Shape} {φ : FTy} (w : BitVec φ.bits) (dims : Fin 0 → Fin t.rank)
    (h : (⟨0, ![]⟩ : Shape).BroadcastsInDim t dims) (j : t.Idx) :
    broadcastInDim t dims h (constant (F := Ideal) ⟨0, ![]⟩ φ w) j = Ideal.ofBits φ w := rfl

end Cert.HostRowForms

end
-- ==== Proof.RefValue.lean ====
/-
  The reference program's result is the network of the specification, over the extended reals.

  The program forms the message array with two gathers and two scatter-adds, which stay opaque here, lays it beside the
  features, and applies a linear layer on the 128 columns, a layer normalisation with tanh, a second linear layer, a
  second normalisation with tanh, and a last linear layer. Every stage is an array of 100000 rows of 64 entries, and read
  at the entry (p, j) it is the specification's row function of row p:

  * a product of a row with a weight matrix is the sum over the contracted coordinate; over 128 columns the sum splits
    into the first 64 terms, which read the message row, and the last 64, which read the feature row;
  * a bias, scale or shift vector broadcast to a row and then to every row reads the vector at j;
  * a sum along the rows from the zero word, laid out as a column and divided by the word of 64, is the row's mean, and
    the column broadcast back to 64 columns reads that mean at every j;
  * the pointwise operations and the host's division, inverse square root and tanh are the extended reals' own.

  The stages are first stated over arbitrary arrays, then the program's named intermediate terms are recognised as those
  stages by unfolding definitions.
-/
import proofs.«173184_j3255585210371_2_alg».proof.Proof.Gen.ReferenceIdeal.Run
import proofs.«173184_j3255585210371_2_alg».proof.Proof.Spec
import proofs.«173184_j3255585210371_2_alg».proof.Proof.LibHostRowForms
import proofs.«173184_j3255585210371_2_alg».proof.Proof.LibPlainProduct
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Idealize.ShloMosaic.PlainProduct
  Cert.HostRowForms
open scoped BigOperators

/-! ## The message array -/

/-- Row 0 of the edge index array, as a vector over the edges. -/
def row0 (ei : IVec S2x1000000 32) : IVec S1000000 32 :=
  shapeCast S1000000 (extractStridedSlice S1x1000000 ![0, 0] ei slices_S2x1000000_S1x1000000_0_0) shapeCasts_S1x1000000_S1000000

/-- Row 1 of the edge index array, as a vector over the edges. -/
def row1 (ei : IVec S2x1000000 32) : IVec S1000000 32 :=
  shapeCast S1000000 (extractStridedSlice S1x1000000 ![1, 0] ei slices_S2x1000000_S1x1000000_1_0) shapeCasts_S1x1000000_S1000000

/-- A node number with a negative value moved up by the number of nodes. -/
def normIdx (r : IVec S1000000 32) : IVec S1000000 32 :=
  select (cmpi .slt r (broadcastInDim S1000000 ![] bcast_S_S1000000 (constantI S_ 32 0#32)))
    (addi r (broadcastInDim S1000000 ![] bcast_S_S1000000 (constantI S_ 32 100000#32))) r

/-- One direction of the messages: each edge's weight times the feature row of its node src, added into the row of its
    node dst, from the zero array. -/
def halfMessages (x : FVec Ideal S100000x64 .f32) (e : FVec Ideal S1000000 .f32) (src dst : IVec S1000000 32) :
    FVec Ideal S100000x64 .f32 :=
  Host.scatterAdd scatter_S100000x64_S1000000x1_S1000000x64_1_0_0_1
    (broadcastInDim S100000x64 ![] bcast_S_S100000x64 (constant (F := Ideal) S_ .f32 0x00000000#32))
    (broadcastInDim S1000000x1 ![0] bcast_S1000000_S1000000x1_0 dst)
    (mulf (broadcastInDim S1000000x64 ![0, 1] bcast_S1000000x1_S1000000x64_0_1
        (broadcastInDim S1000000x1 ![0] bcast_S1000000_S1000000x1_0 e))
      (Host.gather gather_S100000x64_S1000000x1_S1000000x64_1_0_n_n_0_1_164 x
        (broadcastInDim S1000000x1 ![0] bcast_S1000000_S1000000x1_0 (normIdx src))))

/-- The reference's message array: both directions of every edge. -/
def messages (x : FVec Ideal S100000x64 .f32) (e : FVec Ideal S1000000 .f32) (ei : IVec S2x1000000 32) :
    FVec Ideal S100000x64 .f32 :=
  addf (halfMessages x e (row0 ei) (row1 ei)) (halfMessages x e (row1 ei) (row0 ei))

/-- The message array written out in full: the sum of two scatter-adds from the zero array, each of the edge weights
    times the gathered feature rows, the gathers at the sign-normalised node numbers of one row of the edge index array
    and the scatter-adds at the other row. -/
theorem messages_def (x : FVec Ideal S100000x64 .f32) (e : FVec Ideal S1000000 .f32) (ei : IVec S2x1000000 32) :
    messages x e ei
      = addf
        (Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (row1 ei))
          (mulf (broadcastInDim S1000000x64 ![0, 1] bcast_S1000000x1_S1000000x64_0_1
              (broadcastInDim S1000000x1 ![0] bcast_S1000000_S1000000x1_0 e))
            (Host.gather gather_S100000x64_S1000000x1_S1000000x64_1_0_n_n_0_1_164 x
              (broadcastInDim S1000000x1 ![0] bcast_S1000000_S1000000x1_0
                (select (cmpi .slt (row0 ei) (broadcastInDim S1000000 ![] bcast_S_S1000000 (constantI S_ 32 0#32)))
                  (addi (row0 ei) (broadcastInDim S1000000 ![] bcast_S_S1000000 (constantI S_ 32 100000#32)))
                  (row0 ei))))))
        (Host.scatterAdd scatter_S100000x64_S1000000x1_S1000000x64_1_0_0_1
          (broadcastInDim S100000x64 ![] bcast_S_S100000x64 (constant (F := Ideal) S_ .f32 0x00000000#32))
          (broadcastInDim S1000000x1 ![0] bcast_S1000000_S1000000x1_0 (row0 ei))
          (mulf (broadcastInDim S1000000x64 ![0, 1] bcast_S1000000x1_S1000000x64_0_1
              (broadcastInDim S1000000x1 ![0] bcast_S1000000_S1000000x1_0 e))
            (Host.gather gather_S100000x64_S1000000x1_S1000000x64_1_0_n_n_0_1_164 x
              (broadcastInDim S1000000x1 ![0] bcast_S1000000_S1000000x1_0
                (select (cmpi .slt (row1 ei) (broadcastInDim S1000000 ![] bcast_S_S1000000 (constantI S_ 32 0#32)))
                  (addi (row1 ei) (broadcastInDim S1000000 ![] bcast_S_S1000000 (constantI S_ 32 100000#32)))
                  (row1 ei)))))) := rfl

/-! ## The stages over arbitrary arrays -/

/-- A vector of 64 entries laid out as a row and repeated on every row. -/
def rowBcast (v : FVec Ideal S64 .f32) : FVec Ideal S100000x64 .f32 :=
  broadcastInDim S100000x64 ![0, 1] bcast_S1x64_S100000x64_0_1 (broadcastInDim S1x64 ![1] bcast_S64_S1x64_1 v)

theorem rowBcast_apply (v : FVec Ideal S64 .f32) (p : Fin 100000) (j : Fin 64) : rowBcast v (ix2 p j) = v (ix1 j) := by
  show broadcastInDim S100000x64 ![0, 1] bcast_S1x64_S100000x64_0_1 (broadcastInDim S1x64 ![1] bcast_S64_S1x64_1 v) (ix2 p j) = _
  rw [bcast_1b_ab_apply _ _ rfl, bcast_b_1b_apply _ _ rfl]

/-- The row means of an array, as a column. -/
def meanCol (h : FVec Ideal S100000x64 .f32) : FVec Ideal S100000x1 .f32 :=
  Host.divf (broadcastInDim S100000x1 ![0] bcast_S100000_S100000x1_0
      (Host.reduceAdd h (constant (F := Ideal) S_ .f32 0x00000000#32) reducesTo_S100000x64_S100000_d1 h_S_))
    (broadcastInDim S100000x1 ![] bcast_S_S100000x1 (constant (F := Ideal) S_ .f32 0x42800000#32))

theorem meanCol_apply (h : FVec Ideal S100000x64 .f32) (p : Fin 100000) (u : Fin 1) :
    meanCol h (ix2 p u) = Cert.EdgeMLP.mean fun k => h (ix2 p k) := by
  show Ideal.div (broadcastInDim S100000x1 ![0] bcast_S100000_S100000x1_0
      (Host.reduceAdd h (constant (F := Ideal) S_ .f32 0x00000000#32) reducesTo_S100000x64_S100000_d1 h_S_) (ix2 p u))
    (broadcastInDim S100000x1 ![] bcast_S_S100000x1 (constant (F := Ideal) S_ .f32 0x42800000#32) (ix2 p u)) = _
  rw [bcast_a_a1_apply _ _ rfl,
    reduceAdd_rows h _ ⟨reducesTo_S100000x64_S100000_d1.1, Nat.one_pos, reducesTo_S100000x64_S100000_d1.2⟩ h_S_ p]
  rfl

/-- An array less its row means. -/
def centredArr (h : FVec Ideal S100000x64 .f32) : FVec Ideal S100000x64 .f32 :=
  subf h (broadcastInDim S100000x64 ![0, 1] bcast_S100000x1_S100000x64_0_1 (meanCol h))

theorem centredArr_apply (h : FVec Ideal S100000x64 .f32) (p : Fin 100000) (j : Fin 64) :
    centredArr h (ix2 p j) = Cert.EdgeMLP.centred (fun k => h (ix2 p k)) j := by
  show h (ix2 p j) - broadcastInDim S100000x64 ![0, 1] bcast_S100000x1_S100000x64_0_1 (meanCol h) (ix2 p j) = _
  rw [bcast_a1_ab_apply _ _ rfl, meanCol_apply]
  rfl

/-- The inverse square roots of the rows' offset variances, as a column. -/
def invStdCol (h : FVec Ideal S100000x64 .f32) : FVec Ideal S100000x1 .f32 :=
  Host.rsqrt (addf (meanCol (mulf (centredArr h) (centredArr h)))
    (broadcastInDim S100000x1 ![] bcast_S_S100000x1 (constant (F := Ideal) S_ .f32 0x3727C5AC#32)))

theorem invStdCol_apply (h : FVec Ideal S100000x64 .f32) (p : Fin 100000) (u : Fin 1) :
    invStdCol h (ix2 p u) = Cert.EdgeMLP.invStd fun k => h (ix2 p k) := by
  show Ideal.rsqrt (meanCol (mulf (centredArr h) (centredArr h)) (ix2 p u)
    + broadcastInDim S100000x1 ![] bcast_S_S100000x1 (constant (F := Ideal) S_ .f32 0x3727C5AC#32) (ix2 p u)) = _
  have hsq : (fun k => mulf (centredArr h) (centredArr h) (ix2 p k))
      = fun k => Cert.EdgeMLP.centred (fun k => h (ix2 p k)) k * Cert.EdgeMLP.centred (fun k => h (ix2 p k)) k :=
    funext fun k => by
      show centredArr h (ix2 p k) * centredArr h (ix2 p k) = _
      rw [centredArr_apply]
  rw [meanCol_apply, hsq]
  rfl

/-- Layer normalisation of every row with scale g and shift b, then tanh. -/
def normActArr (h : FVec Ideal S100000x64 .f32) (g b : FVec Ideal S64 .f32) : FVec Ideal S100000x64 .f32 :=
  Host.tanh (addf (mulf (mulf (centredArr h)
    (broadcastInDim S100000x64 ![0, 1] bcast_S100000x1_S100000x64_0_1 (invStdCol h))) (rowBcast g)) (rowBcast b))

theorem normActArr_apply (h : FVec Ideal S100000x64 .f32) (g b : FVec Ideal S64 .f32) (p : Fin 100000) (j : Fin 64) :
    normActArr h g b (ix2 p j)
      = Cert.EdgeMLP.normAct (fun k => h (ix2 p k)) (fun k => g (ix1 k)) (fun k => b (ix1 k)) j := by
  show Ideal.tanh (centredArr h (ix2 p j)
      * broadcastInDim S100000x64 ![0, 1] bcast_S100000x1_S100000x64_0_1 (invStdCol h) (ix2 p j)
      * rowBcast g (ix2 p j) + rowBcast b (ix2 p j)) = _
  rw [centredArr_apply, bcast_a1_ab_apply _ _ rfl, invStdCol_apply, rowBcast_apply, rowBcast_apply]
  rfl

theorem normActArr_row (h : FVec Ideal S100000x64 .f32) (g b : FVec Ideal S64 .f32) (p : Fin 100000) :
    (fun k => normActArr h g b (ix2 p k))
      = Cert.EdgeMLP.normAct (fun k => h (ix2 p k)) (fun k => g (ix1 k)) (fun k => b (ix1 k)) :=
  funext fun j => normActArr_apply h g b p j

/-- A linear layer on 64 columns: every row times the weight matrix, plus the bias. -/
def affineArr (a : FVec Ideal S100000x64 .f32) (W : FVec Ideal S64x64 .f32) (b : FVec Ideal S64 .f32) :
    FVec Ideal S100000x64 .f32 :=
  addf (Host.dotGeneral dot_S100000x64_S64x64_S100000x64_1_0_0_1_n_n none a W) (rowBcast b)

theorem affineArr_apply (a : FVec Ideal S100000x64 .f32) (W : FVec Ideal S64x64 .f32) (b : FVec Ideal S64 .f32)
    (p : Fin 100000) (j : Fin 64) :
    affineArr a W b (ix2 p j)
      = Cert.EdgeMLP.affine (fun k => a (ix2 p k)) (fun k j => W (ix2 k j)) (fun k => b (ix1 k)) j := by
  show Host.dotGeneral dot_S100000x64_S64x64_S100000x64_1_0_0_1_n_n none a W (ix2 p j) + rowBcast b (ix2 p j) = _
  rw [dotGeneral_of_plain (m := 100000) (k := 64) (n := 64) dot_S100000x64_S64x64_S100000x64_1_0_0_1_n_n rfl, rowBcast_apply]
  rfl

theorem affineArr_row (a : FVec Ideal S100000x64 .f32) (W : FVec Ideal S64x64 .f32) (b : FVec Ideal S64 .f32)
    (p : Fin 100000) :
    (fun k => affineArr a W b (ix2 p k))
      = Cert.EdgeMLP.affine (fun k => a (ix2 p k)) (fun k j => W (ix2 k j)) (fun k => b (ix1 k)) :=
  funext fun j => affineArr_apply a W b p j

/-- The two arrays side by side: 128 columns. -/
def beside (mi x : FVec Ideal S100000x64 .f32) : FVec Ideal S100000x128 .f32 :=
  concatenate S100000x128 1 [⟨S100000x64, mi⟩, ⟨S100000x64, x⟩] concatenates_S100000x64_S100000x64_S100000x128_d1

/-- The first 64 columns of the two arrays side by side are the first array's. -/
theorem beside_left (mi x : FVec Ideal S100000x64 .f32) (p : Fin 100000) (k : Fin 64) :
    beside mi x (ix2 p (⟨k.val, by omega⟩ : Fin 128)) = mi (ix2 p k) :=
  concatenate_pair_apply_left (t := S100000x128) (s₁ := S100000x64) (s₂ := S100000x64) 1 mi x
    concatenates_S100000x64_S100000x64_S100000x128_d1 (ix2 p (⟨k.val, by omega⟩ : Fin 128)) rfl (ix2 p k) fun b => by
      match b with
      | ⟨0, _⟩ => rfl
      | ⟨1, _⟩ => rfl

/-- The last 64 columns of the two arrays side by side are the second array's. -/
theorem beside_right (mi x : FVec Ideal S100000x64 .f32) (p : Fin 100000) (k : Fin 64) :
    beside mi x (ix2 p (⟨64 + k.val, by omega⟩ : Fin 128)) = x (ix2 p k) :=
  concatenate_pair_apply_right (t := S100000x128) (s₁ := S100000x64) (s₂ := S100000x64) 1 mi x
    concatenates_S100000x64_S100000x64_S100000x128_d1 (ix2 p (⟨64 + k.val, by omega⟩ : Fin 128)) rfl rfl (ix2 p k)
    (fun b => by
      match b with
      | ⟨0, _⟩ => exact fun _ => rfl
      | ⟨1, _⟩ => exact fun hne => absurd rfl hne)
    (by show k.val + 64 = 64 + k.val; omega)

/-- The first linear layer: the two arrays side by side times the 128-row weight matrix, plus the bias. -/
def firstArr (mi x : FVec Ideal S100000x64 .f32) (W1 : FVec Ideal S128x64 .f32) (b1 : FVec Ideal S64 .f32) :
    FVec Ideal S100000x64 .f32 :=
  addf (Host.dotGeneral dot_S100000x128_S128x64_S100000x64_1_0_0_1_n_n none (beside mi x) W1) (rowBcast b1)

theorem firstArr_apply (mi x : FVec Ideal S100000x64 .f32) (W1 : FVec Ideal S128x64 .f32) (b1 : FVec Ideal S64 .f32)
    (p : Fin 100000) (j : Fin 64) :
    firstArr mi x W1 b1 (ix2 p j)
      = Cert.EdgeMLP.firstLayer (fun k => mi (ix2 p k)) (fun k => x (ix2 p k))
          (fun k j => W1 (ix2 (⟨k.val, by omega⟩ : Fin 128) j)) (fun k j => W1 (ix2 (⟨64 + k.val, by omega⟩ : Fin 128) j))
          (fun k => b1 (ix1 k)) j := by
  show Host.dotGeneral dot_S100000x128_S128x64_S100000x64_1_0_0_1_n_n none (beside mi x) W1 (ix2 p j)
    + rowBcast b1 (ix2 p j) = _
  rw [dotGeneral_of_plain (m := 100000) (k := 128) (n := 64) dot_S100000x128_S128x64_S100000x64_1_0_0_1_n_n rfl, rowBcast_apply,
    Cert.EdgeMLP.sum_halves]
  simp only [beside_left, beside_right]
  rfl

theorem firstArr_row (mi x : FVec Ideal S100000x64 .f32) (W1 : FVec Ideal S128x64 .f32) (b1 : FVec Ideal S64 .f32)
    (p : Fin 100000) :
    (fun k => firstArr mi x W1 b1 (ix2 p k))
      = Cert.EdgeMLP.firstLayer (fun k => mi (ix2 p k)) (fun k => x (ix2 p k))
          (fun k j => W1 (ix2 (⟨k.val, by omega⟩ : Fin 128) j)) (fun k j => W1 (ix2 (⟨64 + k.val, by omega⟩ : Fin 128) j))
          (fun k => b1 (ix1 k)) :=
  funext fun j => firstArr_apply mi x W1 b1 p j

/-- The whole network on arrays: the three linear layers with the two normalisations between them. -/
def net (mi x : FVec Ideal S100000x64 .f32) (W1 : FVec Ideal S128x64 .f32) (b1 g1 be1 : FVec Ideal S64 .f32)
    (W2 : FVec Ideal S64x64 .f32) (b2 g2 be2 : FVec Ideal S64 .f32) (W3 : FVec Ideal S64x64 .f32)
    (b3 : FVec Ideal S64 .f32) : FVec Ideal S100000x64 .f32 :=
  affineArr (normActArr (affineArr (normActArr (firstArr mi x W1 b1) g1 be1) W2 b2) g2 be2) W3 b3

/-- The network on arrays is the specification's result array. -/
theorem net_eq (mi x : FVec Ideal S100000x64 .f32) (W1 : FVec Ideal S128x64 .f32) (b1 g1 be1 : FVec Ideal S64 .f32)
    (W2 : FVec Ideal S64x64 .f32) (b2 g2 be2 : FVec Ideal S64 .f32) (W3 : FVec Ideal S64x64 .f32)
    (b3 : FVec Ideal S64 .f32) :
    net mi x W1 b1 g1 be1 W2 b2 g2 be2 W3 b3 = Cert.EdgeMLP.G mi x W1 b1 g1 be1 W2 b2 g2 be2 W3 b3 := by
  funext i
  obtain ⟨p, q, rfl⟩ : ∃ (p : Fin 100000) (q : Fin 64), i = ix2 p q := ⟨i 0, i 1, eq_ix2 i⟩
  show affineArr (normActArr (affineArr (normActArr (firstArr mi x W1 b1) g1 be1) W2 b2) g2 be2) W3 b3 (ix2 p q) = _
  rw [affineArr_apply, normActArr_row, affineArr_row, normActArr_row, firstArr_row]
  rfl

/-! ## The program's terms are these stages -/

section Terms

variable (V0 : Valuation τ sig (Elt Ideal))

set_option maxRecDepth 8192 in
/-- The first linear layer's output, as the program composes it, is the first stage on the message array. -/
theorem v34_eq : (res_main_v34 V0 : FVec Ideal S100000x64 .f32)
    = firstArr (messages (V0 (Proc.devRef .tc main_arg0)) (V0 (Proc.devRef .tc main_arg1)) (V0 (Proc.devRef .tc main_arg2)))
        (V0 (Proc.devRef .tc main_arg0)) (V0 (Proc.devRef .tc main_arg3)) (V0 (Proc.devRef .tc main_arg4)) := rfl

set_option maxRecDepth 8192 in
/-- The second linear layer's output is the second stage on the first normalised activation. -/
theorem v63_eq : (res_main_v63 V0 : FVec Ideal S100000x64 .f32)
    = affineArr (normActArr (res_main_v34 V0) (V0 (Proc.devRef .tc main_arg5)) (V0 (Proc.devRef .tc main_arg6)))
        (V0 (Proc.devRef .tc main_arg7)) (V0 (Proc.devRef .tc main_arg8)) := rfl

set_option maxRecDepth 8192 in
/-- The last linear layer on the second normalised activation is the specification's result array of the message
    array, the features and the parameters. -/
theorem out_spec :
    affineArr (normActArr (res_main_v63 V0) (V0 (Proc.devRef .tc main_arg9)) (V0 (Proc.devRef .tc main_arg10)))
        (V0 (Proc.devRef .tc main_arg11)) (V0 (Proc.devRef .tc main_arg12))
      = Cert.EdgeMLP.G (messages (V0 (Proc.devRef .tc main_arg0)) (V0 (Proc.devRef .tc main_arg1)) (V0 (Proc.devRef .tc main_arg2)))
        (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7))
        (V0 (Proc.devRef .tc main_arg8)) (V0 (Proc.devRef .tc main_arg9)) (V0 (Proc.devRef .tc main_arg10)) (V0 (Proc.devRef .tc main_arg11)) (V0 (Proc.devRef .tc main_arg12)) := by
  rw [v63_eq, v34_eq]
  exact net_eq _ _ _ _ _ _ _ _ _ _ _ _

end Terms

/-! ## The run -/

set_option maxRecDepth 8192 in
/-- On every device, from any memory with zero counters, every weakly fair execution of the reference program ends with
    its result buffer at the specification's result array of the reference's message array, and its arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = Cert.EdgeMLP.G
          (messages (m ((c.tc : Thread nD τ).loc main_arg0)) (m ((c.tc : Thread nD τ).loc main_arg1))
            (m ((c.tc : Thread nD τ).loc main_arg2)))
          (m ((c.tc : Thread nD τ).loc main_arg0)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1.trans (out_spec (launchContents m c)), (h c).2⟩)
    (Cert.ReferenceIdeal.Value.run (F := Ideal) m ρ)

end Cert.ReferenceIdeal.RefValue

end
-- ==== Proof.LibScatterSplit.lean ====
/-
  A segment sum over a list laid end to end is the sum of the segment sums of its two halves.

  The host's accumulating scatter on ROWS — operand `[R, 64]`, one scatter index per update row (indices `[n, 1]`),
  updates `[n, 64]`, the update's second axis the window, the operand's first axis the one the index names — adds
  update row `q` into operand row `idx q` (read signed; a row outside the operand is dropped). Over the extended reals
  the result at `i` is the operand's element plus the sum of every update element landing on `i`.

  Where an update element lands depends only on its own scatter index and its own column: the start is the index on
  the operand's first axis and `0` on the second, the window coordinate `0` on the first axis and the column on the
  second (`start_ix2`, `window_ix2`). So two scatters of this form — of different lengths — send an update element to the
  same place as soon as the two elements read the same index word and sit in the same column (`resultIdx?_rows`).

  Hence, for update rows `A ++ B` (each `n` rows) with indices `E ++ S`: the sum over the `n + n` rows splits into the
  first `n` and the last `n`; row `p` of the first part reads `E p` and `A p`, row `n + p` reads `S p` and `B p`; so
  the landing sum is the landing sum of `(E, A)` plus that of `(S, B)`. From a zero operand the scatter of the
  concatenation is therefore the sum of the two scatters (`scatterAdd_concat_gen`; `scatterAdd_concat` at
  `R = 100000`, `n = 1000000`). Sums in the extended reals need no finiteness: they form a commutative additive monoid.
-/
import Idealize.ShloMosaic.PureOps.Ideal.Laws
import Idealize.ShloMosaic.Lib.ValueIdx
import Idealize.ShloMosaic.Lib.Pipeline.Value

namespace Cert.ScatterSplit

open Idealize.ShloMosaic Idealize.ShloMosaic.ValueIdx
open scoped BigOperators

/-- The dimension numbers of a segment sum on rows: operand `[R, 64]`, scatter indices `[n, 1]`, updates `[n, 64]`;
    the update's axis 1 is the window, the operand's axis 0 is inserted and is the axis the index names, the index
    vector lies along axis 1 of the indices. Any proof of well-formedness gives the same record. -/
abbrev rowScatter (R n : Nat)
    (wf : ScatterDims.WF (⟨2, ![R, 64]⟩ : Shape) ⟨2, ![n, 1]⟩ ⟨2, ![n, 64]⟩ [1] [0] [0] 1) :
    ScatterDims (⟨2, ![R, 64]⟩ : Shape) ⟨2, ![n, 1]⟩ ⟨2, ![n, 64]⟩ :=
  { updateWindowDims := [1], insertedWindowDims := [0], scatterDimsToOperandDims := [0], indexVectorDim := 1, wf := wf }

/-- Two scatters into one operand shape — their index and update shapes may differ — send update indices `j` and
    `j'` to the same operand index (or drop both) when the window starts and the window coordinates agree on every
    operand axis: the result index is start plus window coordinate, kept exactly when inside the operand. -/
theorem resultIdx?_congr {s si si' u u' : Shape} (d : ScatterDims s si u) (d' : ScatterDims s si' u') {w : Nat}
    (j : u.Idx) (j' : u'.Idx) (idx : IVec si w) (idx' : IVec si' w)
    (hs : ∀ a, d.start j idx a = d'.start j' idx' a) (hw : ∀ a, d.window j a = d'.window j' a) :
    d.resultIdx? j idx = d'.resultIdx? j' idx' := by
  unfold ScatterDims.resultIdx?
  by_cases h : ∀ a, 0 ≤ d.start j idx a + d.window j a ∧ d.start j idx a + d.window j a < s.size a
  · have h' : ∀ a, 0 ≤ d'.start j' idx' a + d'.window j' a ∧ d'.start j' idx' a + d'.window j' a < s.size a :=
      fun a => by rw [← hs, ← hw]; exact h a
    rw [dif_pos h, dif_pos h']
    congr 1
    funext a
    apply Fin.ext
    simp only [hs, hw]
  · have h' : ¬ ∀ a, 0 ≤ d'.start j' idx' a + d'.window j' a ∧ d'.start j' idx' a + d'.window j' a < s.size a :=
      fun h' => h fun a => by rw [hs, hw]; exact h' a
    rw [dif_neg h, dif_neg h']

/-- The operand's axes that are not inserted: the second one. -/
theorem sKept_eq (R n : Nat) (wf) : (rowScatter R n wf).sKept = [1] := rfl
/-- The updates' axes that are not window axes: the first one. -/
theorem uScatter_eq (R n : Nat) (wf) : (rowScatter R n wf).uScatter = [0] := rfl
/-- The scatter indices' axes other than the index vector's: the first one. -/
theorem siKept_eq (R n : Nat) (wf) : (rowScatter R n wf).siKept = [0] := rfl

/-- On the operand's first axis the window of update index `j` starts at the scatter index of `j`'s row, read signed. -/
theorem start_zero (R n : Nat) (wf) {w : Nat} (j : (⟨2, ![n, 64]⟩ : Shape).Idx) (idx : IVec ⟨2, ![n, 1]⟩ w) :
    (rowScatter R n wf).start j idx 0 = (idx (ix2 (j 0) 0)).toInt := by
  unfold ScatterDims.start
  rw [dif_pos (by simp)]
  congr 2
  funext b
  match b with
  | ⟨0, _⟩ =>
    apply Fin.ext
    unfold ScatterDims.siIdx
    rw [dif_neg (by simp)]
    unfold ScatterDims.siCoord
    simp only [Fin.coe_cast]
    rfl
  | ⟨1, _⟩ =>
    apply Fin.ext
    unfold ScatterDims.siIdx
    rw [dif_pos (by simp)]
    simp

/-- On the operand's second axis, which no scatter index names, every window starts at `0`. -/
theorem start_one (R n : Nat) (wf) {w : Nat} (j : (⟨2, ![n, 64]⟩ : Shape).Idx) (idx : IVec ⟨2, ![n, 1]⟩ w) :
    (rowScatter R n wf).start j idx 1 = 0 := by
  unfold ScatterDims.start
  rw [dif_neg (by simp)]

/-- On the operand's first axis, an inserted one, the window coordinate is `0`. -/
theorem window_zero (R n : Nat) (wf) (j : (⟨2, ![n, 64]⟩ : Shape).Idx) :
    (rowScatter R n wf).window j 0 = 0 := by
  unfold ScatterDims.window
  rw [dif_neg (by rw [sKept_eq]; simp)]

/-- On the operand's second axis the window coordinate of update index `j` is `j`'s column. -/
theorem window_one (R n : Nat) (wf) (j : (⟨2, ![n, 64]⟩ : Shape).Idx) :
    (rowScatter R n wf).window j 1 = (j 1).val := by
  unfold ScatterDims.window
  rw [dif_pos (by rw [sKept_eq]; simp)]
  rfl

/-- The window start of update element `(q, b)` on each operand axis: the index word of row `q` on the first, `0` on
    the second. -/
theorem start_ix2 (R n : Nat) (wf) {w : Nat} (q : Fin n) (b : Fin 64) (idx : IVec ⟨2, ![n, 1]⟩ w) (a : Fin 2) :
    (rowScatter R n wf).start (ix2 q b) idx a = if a.val = 0 then (idx (ix2 q 0)).toInt else 0 := by
  fin_cases a
  · exact start_zero R n wf (ix2 q b) idx
  · exact start_one R n wf (ix2 q b) idx

/-- The window coordinate of update element `(q, b)` on each operand axis: `0` on the first, the column `b` on the
    second. -/
theorem window_ix2 (R n : Nat) (wf) (q : Fin n) (b : Fin 64) (a : Fin 2) :
    (rowScatter R n wf).window (ix2 q b) a = if a.val = 0 then 0 else b.val := by
  fin_cases a
  · exact window_zero R n wf (ix2 q b)
  · exact window_one R n wf (ix2 q b)

/-- A list of `n` words written as a column `[n, 1]` reads, at `(p, 0)`, word `p` of the list (also when `n = 1`, where
    the one row is row `0`). -/
theorem bcast_col (n : Nat) (hb : (⟨1, ![n]⟩ : Shape).BroadcastsInDim ⟨2, ![n, 1]⟩ ![0]) {w : Nat}
    (X : IVec ⟨1, ![n]⟩ w) (p : Fin n) (q : Fin 1) :
    broadcastInDim ⟨2, ![n, 1]⟩ ![0] hb X (ix2 p q) = X (ix1 p) := by
  apply broadcastInDim_apply
  intro a
  match a with
  | ⟨0, _⟩ =>
    show p.val = if n = 1 then 0 else p.val
    split
    · have := p.isLt; omega
    · rfl

/-- Two row scatters into operands of one shape, of update lengths `n` and `n'`: update element `(q, b)` of the first
    and `(q', b)` of the second — the same column — land at the same operand element, or are both dropped, when rows
    `q` and `q'` carry the same index word. -/
theorem resultIdx?_rows {R n n' : Nat} (wf) (wf') {w : Nat} (q : Fin n) (q' : Fin n') (b : Fin 64)
    (idx : IVec ⟨2, ![n, 1]⟩ w) (idx' : IVec ⟨2, ![n', 1]⟩ w) (h : idx (ix2 q 0) = idx' (ix2 q' 0)) :
    (rowScatter R n wf).resultIdx? (ix2 q b) idx = (rowScatter R n' wf').resultIdx? (ix2 q' b) idx' := by
  apply resultIdx?_congr
  · intro a; rw [start_ix2, start_ix2, h]
  · intro a; rw [window_ix2, window_ix2]

/-- THE SPLIT, at any sizes. From an operand `Z` that is zero everywhere, the accumulating row scatter of the update
    rows `A` followed by `B` (each `n` rows of 64, `m = n + n` rows together) at the index words `E` followed by `S` is,
    at every operand element, the scatter of `A` at `E` plus the scatter of `B` at `S`. The landing sum over the
    `n + n` update rows is the sum over the first `n` plus the sum over the last `n`; row `p` of the first part carries
    `E p` and `A p`, row `n + p` carries `S p` and `B p`, and each lands where it lands in its own scatter. -/
theorem scatterAdd_concat_gen (R n m : Nat) (hm : m = n + n)
    (wf2 : ScatterDims.WF (⟨2, ![R, 64]⟩ : Shape) ⟨2, ![m, 1]⟩ ⟨2, ![m, 64]⟩ [1] [0] [0] 1)
    (wf1 : ScatterDims.WF (⟨2, ![R, 64]⟩ : Shape) ⟨2, ![n, 1]⟩ ⟨2, ![n, 64]⟩ [1] [0] [0] 1)
    (hb2 : (⟨1, ![m]⟩ : Shape).BroadcastsInDim ⟨2, ![m, 1]⟩ ![0])
    (hb1 : (⟨1, ![n]⟩ : Shape).BroadcastsInDim ⟨2, ![n, 1]⟩ ![0])
    (hcI : Shape.Concatenates [(⟨1, ![n]⟩ : Shape), ⟨1, ![n]⟩] ⟨1, ![m]⟩ 0)
    (hcU : Shape.Concatenates [(⟨2, ![n, 64]⟩ : Shape), ⟨2, ![n, 64]⟩] ⟨2, ![m, 64]⟩ 0)
    {w : Nat} (Z : (⟨2, ![R, 64]⟩ : Shape).Idx → EReal) (hZ : ∀ i, Z i = 0)
    (E S : IVec ⟨1, ![n]⟩ w) (A B : (⟨2, ![n, 64]⟩ : Shape).Idx → EReal) (i : (⟨2, ![R, 64]⟩ : Shape).Idx) :
    Ideal.hostScatterAdd (rowScatter R m wf2) Z
        (broadcastInDim ⟨2, ![m, 1]⟩ ![0] hb2 (concatenate ⟨1, ![m]⟩ 0 [⟨⟨1, ![n]⟩, E⟩, ⟨⟨1, ![n]⟩, S⟩] hcI))
        (concatenate ⟨2, ![m, 64]⟩ 0 [⟨⟨2, ![n, 64]⟩, A⟩, ⟨⟨2, ![n, 64]⟩, B⟩] hcU) i
      = Ideal.hostScatterAdd (rowScatter R n wf1) Z (broadcastInDim ⟨2, ![n, 1]⟩ ![0] hb1 E) A i
        + Ideal.hostScatterAdd (rowScatter R n wf1) Z (broadcastInDim ⟨2, ![n, 1]⟩ ![0] hb1 S) B i := by
  subst hm
  unfold Ideal.hostScatterAdd
  rw [hZ i, zero_add, zero_add, zero_add]
  -- each landing sum as a sum over ALL update elements of "the element if it lands on `i`, else 0", by row and column
  rw [Finset.sum_filter, Finset.sum_filter, Finset.sum_filter]
  rw [sum_idx2, sum_idx2, sum_idx2, Fin.sum_univ_add]
  refine congrArg₂ (· + ·) ?_ ?_
  · -- the first `n` rows: row `p` carries `A p` and the index word `E p`
    refine Finset.sum_congr rfl fun p _ => Finset.sum_congr rfl fun b _ => ?_
    have hU : concatenate ⟨2, ![n + n, 64]⟩ 0 [⟨⟨2, ![n, 64]⟩, A⟩, ⟨⟨2, ![n, 64]⟩, B⟩] hcU (ix2 (Fin.castAdd n p) b)
        = A (ix2 p b) :=
      concatenate_pair_apply_left 0 A B hcU (ix2 (Fin.castAdd n p) b) rfl (ix2 p b) (fun c => by
        match c with
        | ⟨0, _⟩ => rfl
        | ⟨1, _⟩ => rfl)
    have hI : broadcastInDim ⟨2, ![n + n, 1]⟩ ![0] hb2
          (concatenate ⟨1, ![n + n]⟩ 0 [⟨⟨1, ![n]⟩, E⟩, ⟨⟨1, ![n]⟩, S⟩] hcI) (ix2 (Fin.castAdd n p) 0)
        = broadcastInDim ⟨2, ![n, 1]⟩ ![0] hb1 E (ix2 p 0) := by
      rw [bcast_col, bcast_col]
      exact concatenate_pair_apply_left 0 E S hcI (ix1 (Fin.castAdd n p)) rfl (ix1 p) (fun c => by
        match c with
        | ⟨0, _⟩ => rfl)
    rw [hU, resultIdx?_rows wf2 wf1 (Fin.castAdd n p) p b _ _ hI]
  · -- the last `n` rows: row `n + p` carries `B p` and the index word `S p`
    refine Finset.sum_congr rfl fun p _ => Finset.sum_congr rfl fun b _ => ?_
    have hU : concatenate ⟨2, ![n + n, 64]⟩ 0 [⟨⟨2, ![n, 64]⟩, A⟩, ⟨⟨2, ![n, 64]⟩, B⟩] hcU (ix2 (Fin.natAdd n p) b)
        = B (ix2 p b) :=
      concatenate_pair_apply_right 0 A B hcU (ix2 (Fin.natAdd n p) b) rfl rfl (ix2 p b) (fun c hc => by
        match c with
        | ⟨0, _⟩ => exact absurd rfl hc
        | ⟨1, _⟩ => rfl) (by show p.val + n = n + p.val; omega)
    have hI : broadcastInDim ⟨2, ![n + n, 1]⟩ ![0] hb2
          (concatenate ⟨1, ![n + n]⟩ 0 [⟨⟨1, ![n]⟩, E⟩, ⟨⟨1, ![n]⟩, S⟩] hcI) (ix2 (Fin.natAdd n p) 0)
        = broadcastInDim ⟨2, ![n, 1]⟩ ![0] hb1 S (ix2 p 0) := by
      rw [bcast_col, bcast_col]
      exact concatenate_pair_apply_right 0 E S hcI (ix1 (Fin.natAdd n p)) rfl rfl (ix1 p) (fun c hc => by
        match c with
        | ⟨0, _⟩ => exact absurd rfl hc) (by show p.val + n = n + p.val; omega)
    rw [hU, resultIdx?_rows wf2 wf1 (Fin.natAdd n p) p b _ _ hI]

/-- THE SPLIT at the sizes of a segment sum of two million rows of 64 into a hundred thousand segments: from a zero
    operand, the scatter of the rows `A` followed by `B` (a million each) at the segment numbers `E` followed by `S`
    is, elementwise, the scatter of `A` at `E` plus the scatter of `B` at `S`. For any proofs of the shape conditions. -/
theorem scatterAdd_concat
    (wf2 : ScatterDims.WF (⟨2, ![100000, 64]⟩ : Shape) ⟨2, ![2000000, 1]⟩ ⟨2, ![2000000, 64]⟩ [1] [0] [0] 1)
    (wf1 : ScatterDims.WF (⟨2, ![100000, 64]⟩ : Shape) ⟨2, ![1000000, 1]⟩ ⟨2, ![1000000, 64]⟩ [1] [0] [0] 1)
    (hb2 : (⟨1, ![2000000]⟩ : Shape).BroadcastsInDim ⟨2, ![2000000, 1]⟩ ![0])
    (hb1 : (⟨1, ![1000000]⟩ : Shape).BroadcastsInDim ⟨2, ![1000000, 1]⟩ ![0])
    (hcI : Shape.Concatenates [(⟨1, ![1000000]⟩ : Shape), ⟨1, ![1000000]⟩] ⟨1, ![2000000]⟩ 0)
    (hcU : Shape.Concatenates [(⟨2, ![1000000, 64]⟩ : Shape), ⟨2, ![1000000, 64]⟩] ⟨2, ![2000000, 64]⟩ 0)
    (Z : (⟨2, ![100000, 64]⟩ : Shape).Idx → EReal) (hZ : ∀ i, Z i = 0)
    (E S : IVec ⟨1, ![1000000]⟩ 32) (A B : (⟨2, ![1000000, 64]⟩ : Shape).Idx → EReal)
    (i : (⟨2, ![100000, 64]⟩ : Shape).Idx) :
    Ideal.hostScatterAdd (rowScatter 100000 2000000 wf2) Z
        (broadcastInDim ⟨2, ![2000000, 1]⟩ ![0] hb2
          (concatenate ⟨1, ![2000000]⟩ 0 [⟨⟨1, ![1000000]⟩, E⟩, ⟨⟨1, ![1000000]⟩, S⟩] hcI))
        (concatenate ⟨2, ![2000000, 64]⟩ 0 [⟨⟨2, ![1000000, 64]⟩, A⟩, ⟨⟨2, ![1000000, 64]⟩, B⟩] hcU) i
      = Ideal.hostScatterAdd (rowScatter 100000 1000000 wf1) Z (broadcastInDim ⟨2, ![1000000, 1]⟩ ![0] hb1 E) A i
        + Ideal.hostScatterAdd (rowScatter 100000 1000000 wf1) Z (broadcastInDim ⟨2, ![1000000, 1]⟩ ![0] hb1 S) B i :=
  scatterAdd_concat_gen 100000 1000000 2000000 (by norm_num) wf2 wf1 hb2 hb1 hcI hcU Z hZ E S A B i

end Cert.ScatterSplit
-- ==== Proof.Bridge.lean ====
/-
  The two programs form the same message array.

  The reference sums, for every node, the contributions `w · x[s]` of the edges ending at it and, separately, the
  contributions `w · x[t]` of the edges starting at it, and adds the two sums. The kernel's program puts the two lists
  of contributions end to end, and the two lists of destination nodes likewise, and sums once over the doubled list.
  A sum over a disjoint union is the sum of the sums — the extended reals are a commutative monoid under addition, so no
  finiteness is used — and the contributions themselves are the same terms in both programs.
-/
import proofs.«173184_j3255585210371_2_alg».proof.Proof.KernelHost
import proofs.«173184_j3255585210371_2_alg».proof.Proof.RefValue
import proofs.«173184_j3255585210371_2_alg».proof.Proof.LibScatterSplit
import Idealize.ShloMosaic.Lib.ValueIdx

set_option Elab.async false

noncomputable section

namespace Cert.Proof.Messages

open Idealize.ShloMosaic Idealize.ShloMosaic.ValueIdx Cert.ScatterSplit

/-! ## The two programs' records and pieces are the same -/

theorem scatter_long : Cert.KernelIdeal.scatter_S100000x64_S2000000x1_S2000000x64_1_0_0_1
    = rowScatter 100000 2000000 Cert.KernelIdeal.Gen.scatter_S100000x64_S2000000x1_S2000000x64_1_0_0_1_wf := rfl

theorem scatter_short : Cert.ReferenceIdeal.scatter_S100000x64_S1000000x1_S1000000x64_1_0_0_1
    = rowScatter 100000 1000000 Cert.ReferenceIdeal.Gen.scatter_S100000x64_S1000000x1_S1000000x64_1_0_0_1_wf := rfl

/-- Row 0 of the edge list is the start nodes. -/
theorem row0_eq (ei : IVec (⟨2, ![2, 1000000]⟩ : Shape) 32) :
    Cert.ReferenceIdeal.RefValue.row0 ei = Cert.KernelIdeal.HostSide.startRow ei := rfl

/-- Row 1 of the edge list is the end nodes. -/
theorem row1_eq (ei : IVec (⟨2, ![2, 1000000]⟩ : Shape) 32) :
    Cert.ReferenceIdeal.RefValue.row1 ei = Cert.KernelIdeal.HostSide.endRow ei := rfl

/-- The zero array both programs start their sums from. -/
abbrev zeros : (⟨2, ![100000, 64]⟩ : Shape).Idx → EReal :=
  broadcastInDim (⟨2, ![100000, 64]⟩ : Shape) ![] Cert.KernelIdeal.Gen.bcast_S_S100000x64 (constant (F := Ideal) ⟨0, ![]⟩ .f32 0x00000000#32)

theorem zeros_apply (i : (⟨2, ![100000, 64]⟩ : Shape).Idx) : zeros i = 0 := Ideal.ofBits_zero_f32

/-- One direction of the reference's messages, in the kernel program's terms. -/
theorem half_eq (x : FVec Ideal (⟨2, ![100000, 64]⟩ : Shape) .f32) (e : FVec Ideal (⟨1, ![1000000]⟩ : Shape) .f32)
    (src dst : IVec (⟨1, ![1000000]⟩ : Shape) 32) :
    Cert.ReferenceIdeal.RefValue.halfMessages x e src dst
      = Ideal.hostScatterAdd (rowScatter 100000 1000000 Cert.ReferenceIdeal.Gen.scatter_S100000x64_S1000000x1_S1000000x64_1_0_0_1_wf) zeros
          (broadcastInDim (⟨2, ![1000000, 1]⟩ : Shape) ![0] Cert.ReferenceIdeal.Gen.bcast_S1000000_S1000000x1_0 dst)
          (Cert.KernelIdeal.HostSide.weighted x e src) := by
  unfold Cert.ReferenceIdeal.RefValue.halfMessages Host.scatterAdd
  rw [Ideal.hostScatterAdd_def, scatter_short]
  rfl

/-- The kernel program's messages as one accumulating scatter of the doubled lists. -/
theorem long_eq (x : FVec Ideal (⟨2, ![100000, 64]⟩ : Shape) .f32) (e : FVec Ideal (⟨1, ![1000000]⟩ : Shape) .f32)
    (ei : IVec (⟨2, ![2, 1000000]⟩ : Shape) 32) :
    Cert.KernelIdeal.HostSide.messages x e ei
      = Ideal.hostScatterAdd (rowScatter 100000 2000000 Cert.KernelIdeal.Gen.scatter_S100000x64_S2000000x1_S2000000x64_1_0_0_1_wf) zeros
          (broadcastInDim (⟨2, ![2000000, 1]⟩ : Shape) ![0] Cert.KernelIdeal.Gen.bcast_S2000000_S2000000x1_0
            (concatenate (⟨1, ![2000000]⟩ : Shape) 0 [⟨⟨1, ![1000000]⟩, Cert.KernelIdeal.HostSide.endRow ei⟩, ⟨⟨1, ![1000000]⟩, Cert.KernelIdeal.HostSide.startRow ei⟩]
              Cert.KernelIdeal.Gen.concatenates_S1000000_S1000000_S2000000_d0))
          (concatenate (⟨2, ![2000000, 64]⟩ : Shape) 0
            [⟨⟨2, ![1000000, 64]⟩, Cert.KernelIdeal.HostSide.weighted x e (Cert.KernelIdeal.HostSide.startRow ei)⟩,
             ⟨⟨2, ![1000000, 64]⟩, Cert.KernelIdeal.HostSide.weighted x e (Cert.KernelIdeal.HostSide.endRow ei)⟩]
            Cert.KernelIdeal.Gen.concatenates_S1000000x64_S1000000x64_S2000000x64_d0) := by
  unfold Cert.KernelIdeal.HostSide.messages Host.scatterAdd
  rw [Ideal.hostScatterAdd_def, scatter_long]

/-- The reference's message array is the kernel program's. -/
theorem messages_eq (x : FVec Ideal (⟨2, ![100000, 64]⟩ : Shape) .f32) (e : FVec Ideal (⟨1, ![1000000]⟩ : Shape) .f32)
    (ei : IVec (⟨2, ![2, 1000000]⟩ : Shape) 32) :
    Cert.ReferenceIdeal.RefValue.messages x e ei = Cert.KernelIdeal.HostSide.messages x e ei := by
  funext i
  unfold Cert.ReferenceIdeal.RefValue.messages
  rw [addf_apply, half_eq, half_eq, row0_eq, row1_eq, long_eq]
  exact (scatterAdd_concat _ _ _ _ _ _ zeros zeros_apply _ _ _ _ i).symm

end Cert.Proof.Messages

end
-- ==== Proof.lean ====
/-
  The certificate's claims.

  Both idealized programs compute, for each of 100000 nodes, a three-layer perceptron (two layer normalisations with
  `tanh` between the layers) of the node's message row and feature row, where the message row is the sum over the
  node's edges of the edge weight times the other end's feature row. The kernel's program sums the messages in one pass
  over the doubled edge list, multiplies the two halves of the first layer separately and works on blocks of 5000 rows;
  the reference sums the two directions separately, multiplies the rows laid side by side by the whole matrix, and works
  on whole arrays. Over the extended reals these are the same function: a sum over a disjoint union is the sum of the
  sums, a product with a row of 128 entries is the sum of the products with its two halves, and each output row depends
  on its own input rows alone. Only commutativity and associativity of addition are used, so the precondition is never
  opened. The idealization rewrote nothing in the kernel, and the three frames are the generated ones.
-/
import proofs.«173184_j3255585210371_2_alg».proof.Defs
import proofs.«173184_j3255585210371_2_alg».proof.Proof.Gen.Kernel
import proofs.«173184_j3255585210371_2_alg».proof.Proof.Gen.Kernel.Skeleton
import proofs.«173184_j3255585210371_2_alg».proof.Proof.Gen.Kernel.Launch
import proofs.«173184_j3255585210371_2_alg».proof.Proof.Gen.Kernel.Points
import proofs.«173184_j3255585210371_2_alg».proof.Proof.Gen.Kernel.Frame
import proofs.«173184_j3255585210371_2_alg».proof.Proof.Gen.KernelIdeal
import proofs.«173184_j3255585210371_2_alg».proof.Proof.Gen.KernelIdeal.Skeleton
import proofs.«173184_j3255585210371_2_alg».proof.Proof.Gen.KernelIdeal.Launch
import proofs.«173184_j3255585210371_2_alg».proof.Proof.Gen.KernelIdeal.Points
import proofs.«173184_j3255585210371_2_alg».proof.Proof.Gen.KernelIdeal.Frame
import proofs.«173184_j3255585210371_2_alg».proof.Proof.Gen.KernelIdeal.Value
import proofs.«173184_j3255585210371_2_alg».proof.Proof.Gen.ReferenceIdeal.Run
import proofs.«173184_j3255585210371_2_alg».proof.Proof.Gen.ReferenceIdeal
import proofs.«173184_j3255585210371_2_alg».proof.Proof.Gen.Pre_finite_inputs
import proofs.«173184_j3255585210371_2_alg».proof.Proof.KernelRun
import proofs.«173184_j3255585210371_2_alg».proof.Proof.RefValue
import proofs.«173184_j3255585210371_2_alg».proof.Proof.Bridge
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the specification's function of the message array and the arguments; the
    arguments agree, and the two message arrays are one. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.RefValue.run_spec m' ρ')
  obtain ⟨a0, a1, a2, a3, a4, a5, a6, a7, a8, a9, a10, a11, a12⟩ := hagree c
  rw [a0, a1, a2, a3, a4, a5, a6, a7, a8, a9, a10, a11, a12, Cert.Proof.Messages.messages_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
